-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024x1 : Shape := ⟨4, ![16, 1024, 1024, 1]⟩
abbrev S_ : Shape := ⟨0, ![]⟩

class Facts : Prop where
  bcast_S_S16x1024x1024x1 : S_.BroadcastsInDim S16x1024x1024x1 (![] : Fin 0 → Fin S16x1024x1024x1.rank)
  reducesTo_S16x1024x1024x1_S_d0_1_2_3 : S16x1024x1024x1.ReducesTo [0, 1, 2, 3] S_
  h_S_ : 0 < S_.numel

variable [Facts]

def fn {F : FTy → Type} [FloatOps F] (main_arg0 : FVec F S16x1024x1024x1 .f32) : IVec S_ 1 :=
  let main_v0 : FVec F S16x1024x1024x1 .f32 := Host.absf main_arg0
  let main_cst : FVec F S_ .f32 := constant S_ .f32 0x7F800000#32
  let main_v1 : FVec F S16x1024x1024x1 .f32 := broadcastInDim S16x1024x1024x1 ![] bcast_S_S16x1024x1024x1 main_cst
  let main_v2 : IVec S16x1024x1024x1 1 := cmpf .olt main_v0 main_v1
  let main_c : IVec S_ 1 := constantI S_ 1 1#1
  let main_v3 : IVec S_ 1 := (fun x v => Host.reduce IntOp.andi x v reducesTo_S16x1024x1024x1_S_d0_1_2_3 h_S_) main_v2 main_c
  main_v3
-- ==== Kernel.lean ====
abbrev S16x1024x1024x1 : Shape := ⟨4, ![16, 1024, 1024, 1]⟩
abbrev S16x1024x1024 : Shape := ⟨3, ![16, 1024, 1024]⟩
abbrev S1x1024x1024 : Shape := ⟨3, ![1, 1024, 1024]⟩
abbrev S1x129x1024 : Shape := ⟨3, ![1, 129, 1024]⟩
abbrev S129x1024 : Shape := ⟨2, ![129, 1024]⟩
abbrev S1x1024 : Shape := ⟨2, ![1, 1024]⟩
abbrev S130x1024 : Shape := ⟨2, ![130, 1024]⟩
abbrev S130x1 : Shape := ⟨2, ![130, 1]⟩
abbrev S130x1026 : Shape := ⟨2, ![130, 1026]⟩
abbrev S128x1024 : Shape := ⟨2, ![128, 1024]⟩
abbrev S1x128x1024 : Shape := ⟨3, ![1, 128, 1024]⟩
abbrev S1x144x1024 : Shape := ⟨3, ![1, 144, 1024]⟩
abbrev S144x1024 : Shape := ⟨2, ![144, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16x1024x1024x1, .f32⟩
  | .hbm, ⟨1, _⟩ => ⟨S16x1024x1024, .f32⟩
  | .hbm, ⟨2, _⟩ => ⟨S16x1024x1024, .f32⟩
  | .hbm, ⟨3, _⟩ => ⟨S16x1024x1024x1, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S16x1024x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c1_i32 : BitVec 32 := 1#32
  let c6_i32 : BitVec 32 := 6#32
  let v94 : BitVec 32 := Scalar.addi c1_i32 c6_i32
  let c1_i32_14 : BitVec 32 := 1#32
  ⟨c1_i32, v94, c1_i32_14⟩
def k0_mult1 (k0_t1 : Fin k0_t1_loop.trips) : BitVec 32 :=
  let c1_i32 : BitVec 32 := 1#32
  let c1_i32_14 : BitVec 32 := 1#32
  let arg3 : BitVec 32 := Scf.iv c1_i32 c1_i32_14 k0_t1
  let c128_i32 : BitVec 32 := 128#32
  let v95 : BitVec 32 := Scalar.muli arg3 c128_i32
  v95
def k0_mult2 (k0_t1 : Fin k0_t1_loop.trips) : BitVec 32 :=
  let c1_i32 : BitVec 32 := 1#32
  let c1_i32_14 : BitVec 32 := 1#32
  let arg3 : BitVec 32 := Scf.iv c1_i32 c1_i32_14 k0_t1
  let c128_i32 : BitVec 32 := 128#32
  let v95 : BitVec 32 := Scalar.muli arg3 c128_i32
  let v96 : BitVec 32 := v95
  let c8_i32 : BitVec 32 := 8#32
  let v97 : BitVec 32 := Scalar.subi v96 c8_i32
  v97
def k0_off1 (k0_t1 : Fin k0_t1_loop.trips) : Fin 3 → Nat :=
  let c0_16 : Index := 0#32
  let c1_i32 : BitVec 32 := 1#32
  let c1_i32_14 : BitVec 32 := 1#32
  let arg3 : BitVec 32 := Scf.iv c1_i32 c1_i32_14 k0_t1
  let c128_i32 : BitVec 32 := 128#32
  let v95 : BitVec 32 := Scalar.muli arg3 c128_i32
  let v96 : BitVec 32 := v95
  let c8_i32 : BitVec 32 := 8#32
  let v97 : BitVec 32 := Scalar.subi v96 c8_i32
  let v98 : BitVec 32 := v97
  let v99 : Index := Scalar.indexCast v98
  let c0_17 : Index := 0#32
  ![0, v99.toNat, 0]
def k0_off2 (k0_t1 : Fin k0_t1_loop.trips) : Fin 3 → Nat :=
  let c0_21 : Index := 0#32
  let c1_i32 : BitVec 32 := 1#32
  let c1_i32_14 : BitVec 32 := 1#32
  let arg3 : BitVec 32 := Scf.iv c1_i32 c1_i32_14 k0_t1
  let c128_i32 : BitVec 32 := 128#32
  let v95 : BitVec 32 := Scalar.muli arg3 c128_i32
  let v96 : BitVec 32 := v95
  let v143 : Index := Scalar.indexCast v96
  let c0_22 : Index := 0#32
  ![0, v143.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x1024x1024x1_S16x1024x1024 : S16x1024x1024x1.ShapeCasts S16x1024x1024
  inb_S1x1024x1024_S1x129x1024_0_0_0 : ∀ a, (![0, 0, 0] : Fin 3 → Nat) a + S1x129x1024.size a ≤ S1x1024x1024.size a
  h_S1x129x1024 : 0 < S1x129x1024.numel
  shapeCasts_S1x129x1024_S129x1024 : S1x129x1024.ShapeCasts S129x1024
  slices_S129x1024_o1_0_S1x1024 : S129x1024.Slices ![1, 0] S1x1024
  concatenates_S1x1024_S129x1024_S130x1024_d0 : Shape.Concatenates [S1x1024, S129x1024] S130x1024 0
  slices_S130x1024_o0_1_S130x1 : S130x1024.Slices ![0, 1] S130x1
  slices_S130x1024_o0_1022_S130x1 : S130x1024.Slices ![0, 1022] S130x1
  concatenates_S130x1_S130x1024_S130x1_S130x1026_d1 : Shape.Concatenates [S130x1, S130x1024, S130x1] S130x1026 1
  slices_S130x1026_o1_1_S128x1024 : S130x1026.Slices ![1, 1] S128x1024
  slices_S130x1026_o0_1_S128x1024 : S130x1026.Slices ![0, 1] S128x1024
  slices_S130x1026_o2_1_S128x1024 : S130x1026.Slices ![2, 1] S128x1024
  slices_S130x1026_o1_0_S128x1024 : S130x1026.Slices ![1, 0] S128x1024
  slices_S130x1026_o1_2_S128x1024 : S130x1026.Slices ![1, 2] S128x1024
  slices_S130x1026_o0_2_S128x1024 : S130x1026.Slices ![0, 2] S128x1024
  slices_S130x1026_o2_0_S128x1024 : S130x1026.Slices ![2, 0] S128x1024
  inb_S1x1024x1024_S1x128x1024_0_0_0 : ∀ a, (![0, 0, 0] : Fin 3 → Nat) a + S1x128x1024.size a ≤ S1x1024x1024.size a
  h_S1x128x1024 : 0 < S1x128x1024.numel
  shapeCasts_S1x128x1024_S128x1024 : S1x128x1024.ShapeCasts S128x1024
  shapeCasts_S128x1024_S1x128x1024 : S128x1024.ShapeCasts S1x128x1024
  inb_S1x1024x1024_S1x129x1024_0_895_0 : ∀ a, (![0, 895, 0] : Fin 3 → Nat) a + S1x129x1024.size a ≤ S1x1024x1024.size a
  slices_S129x1024_o127_0_S1x1024 : S129x1024.Slices ![127, 0] S1x1024
  concatenates_S129x1024_S1x1024_S130x1024_d0 : Shape.Concatenates [S129x1024, S1x1024] S130x1024 0
  inb_S1x1024x1024_S1x128x1024_0_896_0 : ∀ a, (![0, 896, 0] : Fin 3 → Nat) a + S1x128x1024.size a ≤ S1x1024x1024.size a
  h_S1x144x1024 : 0 < S1x144x1024.numel
  shapeCasts_S1x144x1024_S144x1024 : S1x144x1024.ShapeCasts S144x1024
  slices_S144x1024_o7_0_S130x1024 : S144x1024.Slices ![7, 0] S130x1024
  bcast_S16x1024x1024_S16x1024x1024x1_0_1_2 : S16x1024x1024.BroadcastsInDim S16x1024x1024x1 (![0, 1, 2] : Fin 3 → Fin S16x1024x1024x1.rank)
  hrank0 : 0 < grid0.rank
  k0_t1_ok : k0_t1_loop.OK
  k0_mult1_dvd : ∀ k0_t1 : Fin k0_t1_loop.trips, 128 ∣ (k0_mult1 k0_t1).toNat
  k0_mult2_dvd : ∀ k0_t1 : Fin k0_t1_loop.trips, 8 ∣ (k0_mult2 k0_t1).toNat
  k0_off1_inb : ∀ k0_t1 : Fin k0_t1_loop.trips, ∀ a, (k0_off1 k0_t1) a + S1x144x1024.size a ≤ S1x1024x1024.size a
  k0_off2_inb : ∀ k0_t1 : Fin k0_t1_loop.trips, ∀ a, (k0_off2 k0_t1) a + S1x128x1024.size a ≤ S1x1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)

variable [Facts₀]

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1024x1024x1 : Shape := ⟨4, ![16, 1024, 1024, 1]⟩
abbrev S_ : Shape := ⟨0, ![]⟩
abbrev S16x1x1024x1 : Shape := ⟨4, ![16, 1, 1024, 1]⟩
abbrev S16x1025x1024x1 : Shape := ⟨4, ![16, 1025, 1024, 1]⟩
abbrev S16x1026x1024x1 : Shape := ⟨4, ![16, 1026, 1024, 1]⟩
abbrev S16x1026x1x1 : Shape := ⟨4, ![16, 1026, 1, 1]⟩
abbrev S16x1026x1025x1 : Shape := ⟨4, ![16, 1026, 1025, 1]⟩
abbrev S16x1026x1026x1 : Shape := ⟨4, ![16, 1026, 1026, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x1024x1024x1, .f32⟩
  | .hbm, ⟨1, _⟩ => ⟨S_, .i32⟩
  | .hbm, ⟨2, _⟩ => ⟨S16x1x1024x1, .f32⟩
  | .hbm, ⟨3, _⟩ => ⟨S16x1x1024x1, .f32⟩
  | .hbm, ⟨4, _⟩ => ⟨S16x1x1024x1, .f32⟩
  | .hbm, ⟨5, _⟩ => ⟨S16x1025x1024x1, .f32⟩
  | .hbm, ⟨6, _⟩ => ⟨S16x1x1024x1, .f32⟩
  | .hbm, ⟨7, _⟩ => ⟨S16x1x1024x1, .f32⟩
  | .hbm, ⟨8, _⟩ => ⟨S16x1x1024x1, .f32⟩
  | .hbm, ⟨9, _⟩ => ⟨S16x1026x1024x1, .f32⟩
  | .hbm, ⟨10, _⟩ => ⟨S16x1026x1x1, .f32⟩
  | .hbm, ⟨11, _⟩ => ⟨S16x1026x1x1, .f32⟩
  | .hbm, ⟨12, _⟩ => ⟨S16x1026x1x1, .f32⟩
  | .hbm, ⟨13, _⟩ => ⟨S16x1026x1025x1, .f32⟩
  | .hbm, ⟨14, _⟩ => ⟨S16x1026x1x1, .f32⟩
  | .hbm, ⟨15, _⟩ => ⟨S16x1026x1x1, .f32⟩
  | .hbm, ⟨16, _⟩ => ⟨S16x1026x1x1, .f32⟩
  | .hbm, ⟨17, _⟩ => ⟨S16x1026x1026x1, .f32⟩
  | .hbm, ⟨18, _⟩ => ⟨S16x1024x1024x1, .f32⟩
  | .hbm, ⟨19, _⟩ => ⟨S16x1024x1024x1, .f32⟩
  | .hbm, ⟨20, _⟩ => ⟨S16x1024x1024x1, .f32⟩
  | .hbm, ⟨21, _⟩ => ⟨S16x1024x1024x1, .f32⟩
  | .hbm, ⟨22, _⟩ => ⟨S16x1024x1024x1, .f32⟩
  | .hbm, ⟨23, _⟩ => ⟨S16x1024x1024x1, .f32⟩
  | .hbm, ⟨24, _⟩ => ⟨S16x1024x1024x1, .f32⟩
  | .hbm, ⟨25, _⟩ => ⟨S16x1024x1024x1, .f32⟩
  | .hbm, ⟨26, _⟩ => ⟨S16x1024x1024x1, .f32⟩
  | .hbm, ⟨27, _⟩ => ⟨S16x1024x1024x1, .f32⟩
  | .hbm, ⟨28, _⟩ => ⟨S16x1024x1024x1, .f32⟩
  | .hbm, ⟨29, _⟩ => ⟨S16x1024x1024x1, .f32⟩
  | .hbm, ⟨30, _⟩ => ⟨S16x1024x1024x1, .f32⟩
  | .hbm, ⟨31, _⟩ => ⟨S16x1024x1024x1, .f32⟩
  | .hbm, ⟨32, _⟩ => ⟨S16x1024x1024x1, .f32⟩
  | .hbm, ⟨33, _⟩ => ⟨S16x1024x1024x1, .f32⟩
  | .hbm, ⟨34, _⟩ => ⟨S16x1024x1024x1, .f32⟩
  | .hbm, ⟨35, _⟩ => ⟨S16x1024x1024x1, .f32⟩
  | .hbm, ⟨36, _⟩ => ⟨S_, .f32⟩
  | .hbm, ⟨37, _⟩ => ⟨S16x1024x1024x1, .f32⟩
  | .hbm, ⟨38, _⟩ => ⟨S16x1024x1024x1, .f32⟩
  | .hbm, ⟨39, _⟩ => ⟨S16x1024x1024x1, .f32⟩
  | .hbm, ⟨40, _⟩ => ⟨S16x1024x1024x1, .f32⟩
  | .hbm, ⟨41, _⟩ => ⟨S16x1024x1024x1, .f32⟩
  | .hbm, ⟨42, _⟩ => ⟨S16x1024x1024x1, .f32⟩
  | .hbm, ⟨43, _⟩ => ⟨S_, .f32⟩
  | .hbm, ⟨44, _⟩ => ⟨S16x1024x1024x1, .f32⟩
  | .hbm, ⟨45, _⟩ => ⟨S16x1024x1024x1, .f32⟩
  | .hbm, ⟨46, _⟩ => ⟨S16x1024x1024x1, .f32⟩
  | .hbm, ⟨47, _⟩ => ⟨S16x1024x1024x1, .f32⟩
  | .hbm, ⟨48, _⟩ => ⟨S16x1024x1024x1, .f32⟩
  | .hbm, ⟨49, _⟩ => ⟨S16x1024x1024x1, .f32⟩
  | .hbm, ⟨50, _⟩ => ⟨S_, .f32⟩
  | .hbm, ⟨51, _⟩ => ⟨S16x1024x1024x1, .f32⟩
  | .hbm, ⟨52, _⟩ => ⟨S16x1024x1024x1, .f32⟩
  | .hbm, ⟨53, _⟩ => ⟨S16x1024x1024x1, .f32⟩
  | .hbm, ⟨54, _⟩ => ⟨S16x1024x1024x1, .f32⟩
  | .hbm, ⟨55, _⟩ => ⟨S16x1024x1024x1, .f32⟩
  | .hbm, ⟨56, _⟩ => ⟨S16x1024x1024x1, .f32⟩
  | .hbm, ⟨57, _⟩ => ⟨S16x1024x1024x1, .f32⟩
  | .hbm, ⟨58, _⟩ => ⟨S16x1024x1024x1, .f32⟩
  | .hbm, ⟨59, _⟩ => ⟨S16x1024x1024x1, .f32⟩
  | .hbm, ⟨60, _⟩ => ⟨S16x1024x1024x1, .f32⟩
  | _, _ => ⟨S16x1024x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S16x1024x1024x1_S16x1x1024x1_0_0_0_0 : S16x1024x1024x1.Slices ![0, 0, 0, 0] S16x1x1024x1
  slices_S16x1024x1024x1_S16x1x1024x1_0_1_0_0 : S16x1024x1024x1.Slices ![0, 1, 0, 0] S16x1x1024x1
  concatenates_S16x1x1024x1_S16x1024x1024x1_S16x1025x1024x1_d1 : Shape.Concatenates [S16x1x1024x1, S16x1024x1024x1] S16x1025x1024x1 1
  slices_S16x1025x1024x1_S16x1x1024x1_0_1024_0_0 : S16x1025x1024x1.Slices ![0, 1024, 0, 0] S16x1x1024x1
  slices_S16x1025x1024x1_S16x1x1024x1_0_1023_0_0 : S16x1025x1024x1.Slices ![0, 1023, 0, 0] S16x1x1024x1
  concatenates_S16x1025x1024x1_S16x1x1024x1_S16x1026x1024x1_d1 : Shape.Concatenates [S16x1025x1024x1, S16x1x1024x1] S16x1026x1024x1 1
  slices_S16x1026x1024x1_S16x1026x1x1_0_0_0_0 : S16x1026x1024x1.Slices ![0, 0, 0, 0] S16x1026x1x1
  slices_S16x1026x1024x1_S16x1026x1x1_0_0_1_0 : S16x1026x1024x1.Slices ![0, 0, 1, 0] S16x1026x1x1
  concatenates_S16x1026x1x1_S16x1026x1024x1_S16x1026x1025x1_d2 : Shape.Concatenates [S16x1026x1x1, S16x1026x1024x1] S16x1026x1025x1 2
  slices_S16x1026x1025x1_S16x1026x1x1_0_0_1024_0 : S16x1026x1025x1.Slices ![0, 0, 1024, 0] S16x1026x1x1
  slices_S16x1026x1025x1_S16x1026x1x1_0_0_1023_0 : S16x1026x1025x1.Slices ![0, 0, 1023, 0] S16x1026x1x1
  concatenates_S16x1026x1025x1_S16x1026x1x1_S16x1026x1026x1_d2 : Shape.Concatenates [S16x1026x1025x1, S16x1026x1x1] S16x1026x1026x1 2
  slices_S16x1026x1026x1_S16x1024x1024x1_0_1_1_0 : S16x1026x1026x1.Slices ![0, 1, 1, 0] S16x1024x1024x1
  slices_S16x1026x1026x1_S16x1024x1024x1_0_2_1_0 : S16x1026x1026x1.Slices ![0, 2, 1, 0] S16x1024x1024x1
  slices_S16x1026x1026x1_S16x1024x1024x1_0_0_1_0 : S16x1026x1026x1.Slices ![0, 0, 1, 0] S16x1024x1024x1
  slices_S16x1026x1026x1_S16x1024x1024x1_0_1_2_0 : S16x1026x1026x1.Slices ![0, 1, 2, 0] S16x1024x1024x1
  slices_S16x1026x1026x1_S16x1024x1024x1_0_1_0_0 : S16x1026x1026x1.Slices ![0, 1, 0, 0] S16x1024x1024x1
  slices_S16x1026x1026x1_S16x1024x1024x1_0_0_2_0 : S16x1026x1026x1.Slices ![0, 0, 2, 0] S16x1024x1024x1
  slices_S16x1026x1026x1_S16x1024x1024x1_0_2_0_0 : S16x1026x1026x1.Slices ![0, 2, 0, 0] S16x1024x1024x1
  bcast_S_S16x1024x1024x1 : S_.BroadcastsInDim S16x1024x1024x1 (![] : Fin 0 → Fin S16x1024x1024x1.rank)

variable [Facts₀]

class Facts : Prop extends Facts₀ where

variable [Facts]
-- ==== Proof.WordOutBlock.lean ====
/-
  (The program as printed, read at machine words: the statement and its proof are those of the idealized program,
  which do not depend on how a float is read.)

  What one grid point leaves in its output block, as one function of its input block.

  The block is a 1024 × 1024 image.  The body writes it in eight horizontal bands of 128 rows: rows 0–127 from
  the slab of rows 0–128 (the row above the image reflected), rows 896–1023 from the slab of rows 895–1023 (the row
  below reflected), and, once per trip k = 0 … 5 of its loop, rows 128(k+1) … 128(k+1)+127 from the slab of the
  144 rows starting at 128k + 120.  Each band is a pure function of its slab, the bands are disjoint and tile the
  block, so the block's final contents do not depend on what the buffer held before.
-/
import proofs.«180297_j1125281431627_2_alg».proof.Proof.Gen.Kernel.Frame
import proofs.«180297_j1125281431627_2_alg».proof.Proof.Gen.Kernel.Loops
import proofs.«180297_j1125281431627_2_alg».proof.Proof.Gen.Kernel.Skeleton
import Idealize.ShloMosaic.Lib.ValueIdx
import Idealize.ShloMosaic.Lib.Writes

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-- The slab of rows 0–128 the first band is computed from. -/
def slabFirst (x0 : Vec F S1x1024x1024 .f32) : Vec F S1x129x1024 .f32 :=
  View.ld x0 (Rect.unit (s := S1x1024x1024) ![0, 0, 0] S1x129x1024.size inb_S1x1024x1024_S1x129x1024_0_0_0)

/-- The slab of rows 895–1023 the last band is computed from. -/
def slabLast (x0 : Vec F S1x1024x1024 .f32) : Vec F S1x129x1024 .f32 :=
  View.ld x0 (Rect.unit (s := S1x1024x1024) ![0, 895, 0] S1x129x1024.size inb_S1x1024x1024_S1x129x1024_0_895_0)

/-- The slab of 144 rows from row 128k + 120 that trip `k`'s band is computed from. -/
def slabTrip (x0 : Vec F S1x1024x1024 .f32) (k : Fin k0_t1_loop.trips) : Vec F S1x144x1024 .f32 :=
  View.ld x0 (Rect.unit (s := S1x1024x1024) (k0_off1 k) S1x144x1024.size (k0_off1_inb k))

/-- The first band's store: rows 0–127. -/
def pieceFirst (x0 : Vec F S1x1024x1024 .f32) : View.Piece (Elt F) S1x1024x1024 .f32 :=
  ⟨Rect.unit ![0, 0, 0] S1x128x1024.size inb_S1x1024x1024_S1x128x1024_0_0_0, k0_pay2 (slabFirst x0)⟩

/-- The last band's store: rows 896–1023. -/
def pieceLast (x0 : Vec F S1x1024x1024 .f32) : View.Piece (Elt F) S1x1024x1024 .f32 :=
  ⟨Rect.unit ![0, 896, 0] S1x128x1024.size inb_S1x1024x1024_S1x128x1024_0_896_0, k0_pay3 (slabLast x0)⟩

/-- Trip `k`'s store: rows 128(k+1) … 128(k+1)+127. -/
def pieceTrip (x0 : Vec F S1x1024x1024 .f32) (k : Fin k0_t1_loop.trips) : View.Piece (Elt F) S1x1024x1024 .f32 :=
  ⟨Rect.unit (k0_off2 k) S1x128x1024.size (k0_off2_inb k), k0_pay4 (k0_pay1 (slabTrip x0 k))⟩

/-- One trip of the loop, run on an input buffer that reads `x0`, stores exactly its band, whatever the output held. -/
theorem tripL_eq (𝒱 : Variants) (c : Dev nD) (bd : Option 𝒱.V) (i : grid0.Coords)
    (arg1 : Memref sig .tc .vmem S1x1024x1024 .f32) (harg1 : arg1.IsWhole)
    (arg2 : Memref sig .tc .vmem S1x1024x1024 .f32) (harg2 : arg2.IsWhole)
    (x0 : Vec F S1x1024x1024 .f32) (k : Fin k0_t1_loop.trips) (f : BufTy.Contents (Elt F) arg2.view.ty) :
    tripL_k0_t1 (F := F) 𝒱 c bd i arg1 harg1 arg2 harg2 (harg1.unread x0) k f = [pieceTrip x0 k] := by
  unfold tripL_k0_t1 trip_k0_t1
  dsimp only
  unfold trip_k0_t1.sl.r pieceTrip slabTrip
  rw [View.readAt_eq_ld, harg1.read_unread]

/-- The pieces the first `n` trips have stored are exactly those trips' bands. -/
theorem mem_pb_iff (𝒱 : Variants) (c : Dev nD) (bd : Option 𝒱.V) (i : grid0.Coords)
    (arg1 : Memref sig .tc .vmem S1x1024x1024 .f32) (harg1 : arg1.IsWhole)
    (arg2 : Memref sig .tc .vmem S1x1024x1024 .f32) (harg2 : arg2.IsWhole)
    (x0 : Vec F S1x1024x1024 .f32) (G : BufTy.Contents (Elt F) arg2.view.ty)
    (p : View.Piece (Elt F) S1x1024x1024 .f32) :
    ∀ n, n ≤ k0_t1_loop.trips →
      (p ∈ pb_k0_t1 (F := F) 𝒱 c bd i arg1 harg1 arg2 harg2 (harg1.unread x0) G n
        ↔ ∃ k : Fin k0_t1_loop.trips, k.val < n ∧ p = pieceTrip x0 k)
  | 0, _ => by
    rw [pb_k0_t1.eq_1]
    constructor
    · intro h; exact absurd h List.not_mem_nil
    · rintro ⟨k, hk, _⟩; omega
  | n + 1, hn => by
    have ih := mem_pb_iff 𝒱 c bd i arg1 harg1 arg2 harg2 x0 G p n (by omega)
    have e := pb_k0_t1_succ (F := F) 𝒱 c bd i arg1 harg1 arg2 harg2 (harg1.unread x0) G ⟨n, hn⟩
    rw [show n + 1 = (⟨n, hn⟩ : Fin k0_t1_loop.trips).val + 1 from rfl, e, tripL_eq, List.mem_append,
      List.mem_singleton, ih]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.mp hk with h | h
      · exact Or.inr ⟨k, h, rfl⟩
      · exact Or.inl (congrArg (pieceTrip x0) (Fin.ext h))

/-- The loop makes six trips. -/
theorem trips_eq : k0_t1_loop.trips = 6 := by decide

theorem row_lt (y : S1x1024x1024.Idx) : (y 1).val < 1024 := (y 1).isLt
theorem col_lt (y : S1x1024x1024.Idx) : (y 2).val < 1024 := (y 2).isLt

/-- A block index in the band of 128 rows from row `o`, as an index of the band. -/
def bandIdx (o : ℕ) (y : S1x1024x1024.Idx) (h : o ≤ (y 1).val ∧ (y 1).val < o + 128) : S1x128x1024.Idx :=
  ix3 (0 : Fin 1) (⟨(y 1).val - o, by omega⟩ : Fin 128) (⟨(y 2).val, col_lt y⟩ : Fin 1024)

/-- The trip whose band holds a row outside the first and the last band. -/
def tripOf (y : S1x1024x1024.Idx) (h0 : ¬ (y 1).val < 128) (h1 : ¬ 896 ≤ (y 1).val) : Fin k0_t1_loop.trips :=
  ⟨(y 1).val / 128 - 1, by rw [trips_eq]; omega⟩

/-- What the body leaves in the output block, element by element: each band's payload of its slab. -/
def outBlock (x0 : Vec F S1x1024x1024 .f32) : S1x1024x1024.Idx → Elt F .f32 := fun y =>
  if h0 : (y 1).val < 128 then
    k0_pay2 (slabFirst x0) (bandIdx 0 y ⟨Nat.zero_le _, by omega⟩)
  else if h1 : 896 ≤ (y 1).val then
    k0_pay3 (slabLast x0) (bandIdx 896 y ⟨h1, by have := row_lt y; omega⟩)
  else
    k0_pay4 (k0_pay1 (slabTrip x0 (tripOf y h0 h1))) (bandIdx (128 * ((y 1).val / 128)) y ⟨by omega, by omega⟩)

/-- An index of a band placed in the block and read back as an index of the band is itself. -/
theorem bandIdx_emb (off : Fin 3 → ℕ) (inb : ∀ a, off a + S1x128x1024.size a ≤ S1x1024x1024.size a)
    (x : (Rect.unit (s := S1x1024x1024) off S1x128x1024.size inb).shape.Idx) (o : ℕ) (ho : off 1 = o) (h2 : off 2 = 0)
    (h : o ≤ ((Rect.unit (s := S1x1024x1024) off S1x128x1024.size inb).emb x 1).val
      ∧ ((Rect.unit (s := S1x1024x1024) off S1x128x1024.size inb).emb x 1).val < o + 128) :
    bandIdx o ((Rect.unit (s := S1x1024x1024) off S1x128x1024.size inb).emb x) h = x := by
  have e1 : ((Rect.unit (s := S1x1024x1024) off S1x128x1024.size inb).emb x 1).val = off 1 + 1 * (x 1).val := rfl
  have e2 : ((Rect.unit (s := S1x1024x1024) off S1x128x1024.size inb).emb x 2).val = off 2 + 1 * (x 2).val := rfl
  have l0 : (x 0).val < 1 := (x 0).isLt
  funext a
  apply Fin.ext
  match a with
  | ⟨0, _⟩ => show (0 : ℕ) = (x 0).val; omega
  | ⟨1, _⟩ =>
    show ((Rect.unit (s := S1x1024x1024) off S1x128x1024.size inb).emb x 1).val - o = (x 1).val
    omega
  | ⟨2, _⟩ =>
    show ((Rect.unit (s := S1x1024x1024) off S1x128x1024.size inb).emb x 2).val = (x 2).val
    omega

/-- The first band's payload is the block's function on rows 0–127. -/
theorem agrees_first (x0 : Vec F S1x1024x1024 .f32) (x : (pieceFirst x0).1.shape.Idx) :
    (pieceFirst x0).2 x = outBlock x0 ((pieceFirst x0).1.emb x) := by
  show k0_pay2 (slabFirst x0) x = outBlock x0 ((Rect.unit (s := S1x1024x1024) ![0, 0, 0] S1x128x1024.size inb_S1x1024x1024_S1x128x1024_0_0_0).emb x)
  have l1 : (x 1).val < 128 := (x 1).isLt
  have e1 : ((Rect.unit (s := S1x1024x1024) ![0, 0, 0] S1x128x1024.size inb_S1x1024x1024_S1x128x1024_0_0_0).emb x 1).val
      = 0 + 1 * (x 1).val := rfl
  unfold outBlock
  rw [dif_pos (by omega), bandIdx_emb _ _ x 0 rfl rfl]

/-- The last band's payload is the block's function on rows 896–1023. -/
theorem agrees_last (x0 : Vec F S1x1024x1024 .f32) (x : (pieceLast x0).1.shape.Idx) :
    (pieceLast x0).2 x = outBlock x0 ((pieceLast x0).1.emb x) := by
  show k0_pay3 (slabLast x0) x = outBlock x0 ((Rect.unit (s := S1x1024x1024) ![0, 896, 0] S1x128x1024.size inb_S1x1024x1024_S1x128x1024_0_896_0).emb x)
  have l1 : (x 1).val < 128 := (x 1).isLt
  have e1 : ((Rect.unit (s := S1x1024x1024) ![0, 896, 0] S1x128x1024.size inb_S1x1024x1024_S1x128x1024_0_896_0).emb x 1).val
      = 896 + 1 * (x 1).val := rfl
  unfold outBlock
  rw [dif_neg (by omega), dif_pos (by omega), bandIdx_emb _ _ x 896 rfl rfl]

/-- Trip `k`'s payload is the block's function on rows 128(k+1) … 128(k+1)+127. -/
theorem agrees_trip (x0 : Vec F S1x1024x1024 .f32) (k : Fin k0_t1_loop.trips) (x : (pieceTrip x0 k).1.shape.Idx) :
    (pieceTrip x0 k).2 x = outBlock x0 ((pieceTrip x0 k).1.emb x) := by
  show k0_pay4 (k0_pay1 (slabTrip x0 k)) x = outBlock x0 ((Rect.unit (s := S1x1024x1024) (k0_off2 k) S1x128x1024.size (k0_off2_inb k)).emb x)
  have hk : k.val < 6 := trips_eq ▸ k.isLt
  have l1 : (x 1).val < 128 := (x 1).isLt
  have o1 : k0_off2 k 1 = 128 * k.val + 128 := by rw [k0_off2_eq]; rfl
  have o2 : k0_off2 k 2 = 0 := by rw [k0_off2_eq]; rfl
  have e1 : ((Rect.unit (s := S1x1024x1024) (k0_off2 k) S1x128x1024.size (k0_off2_inb k)).emb x 1).val
      = k0_off2 k 1 + 1 * (x 1).val := rfl
  unfold outBlock
  rw [dif_neg (by omega), dif_neg (by omega)]
  have ek : tripOf ((Rect.unit (s := S1x1024x1024) (k0_off2 k) S1x128x1024.size (k0_off2_inb k)).emb x) (by omega) (by omega) = k :=
    Fin.ext (by unfold tripOf; show _ / 128 - 1 = k.val; omega)
  rw [ek, bandIdx_emb _ _ x _ (by omega) o2]

/-- Every element of the block lies in one of the eight bands. -/
theorem covered (𝒱 : Variants) (c : Dev nD) (bd : Option 𝒱.V) (i : grid0.Coords)
    (arg1 : Memref sig .tc .vmem S1x1024x1024 .f32) (harg1 : arg1.IsWhole)
    (arg2 : Memref sig .tc .vmem S1x1024x1024 .f32) (harg2 : arg2.IsWhole)
    (x0 : Vec F S1x1024x1024 .f32) (G : BufTy.Contents (Elt F) arg2.view.ty) (y : S1x1024x1024.Idx) :
    ∃ p ∈ pb_k0_t1 (F := F) 𝒱 c bd i arg1 harg1 arg2 harg2 (harg1.unread x0) G k0_t1_loop.trips
        ++ [pieceLast x0, pieceFirst x0], y ∈ p.1.set := by
  have r0 : (y 0).val < 1 := (y 0).isLt
  have r1 := row_lt y
  have r2 := col_lt y
  by_cases h0 : (y 1).val < 128
  · refine ⟨pieceFirst x0, by simp, ?_⟩
    show y ∈ (Rect.unit (s := S1x1024x1024) ![0, 0, 0] S1x128x1024.size inb_S1x1024x1024_S1x128x1024_0_0_0).set
    rw [Rect.mem_set_unit]
    intro a
    match a with
    | ⟨0, _⟩ => exact ⟨Nat.zero_le _, by show (y 0).val < 0 + 1; omega⟩
    | ⟨1, _⟩ => exact ⟨Nat.zero_le _, by show (y 1).val < 0 + 128; omega⟩
    | ⟨2, _⟩ => exact ⟨Nat.zero_le _, by show (y 2).val < 0 + 1024; omega⟩
  · by_cases h1 : 896 ≤ (y 1).val
    · refine ⟨pieceLast x0, by simp, ?_⟩
      show y ∈ (Rect.unit (s := S1x1024x1024) ![0, 896, 0] S1x128x1024.size inb_S1x1024x1024_S1x128x1024_0_896_0).set
      rw [Rect.mem_set_unit]
      intro a
      match a with
      | ⟨0, _⟩ => exact ⟨Nat.zero_le _, by show (y 0).val < 0 + 1; omega⟩
      | ⟨1, _⟩ => exact ⟨by show 896 ≤ (y 1).val; omega, by show (y 1).val < 896 + 128; omega⟩
      | ⟨2, _⟩ => exact ⟨Nat.zero_le _, by show (y 2).val < 0 + 1024; omega⟩
    · refine ⟨pieceTrip x0 (tripOf y h0 h1), List.mem_append_left _
        ((mem_pb_iff 𝒱 c bd i arg1 harg1 arg2 harg2 x0 G _ _ le_rfl).mpr ⟨tripOf y h0 h1, (tripOf y h0 h1).isLt, rfl⟩), ?_⟩
      show y ∈ (Rect.unit (s := S1x1024x1024) (k0_off2 (tripOf y h0 h1)) S1x128x1024.size (k0_off2_inb (tripOf y h0 h1))).set
      have hv : (tripOf y h0 h1).val = (y 1).val / 128 - 1 := rfl
      have o0 : k0_off2 (tripOf y h0 h1) 0 = 0 := by rw [k0_off2_eq]; rfl
      have o1 : k0_off2 (tripOf y h0 h1) 1 = 128 * (tripOf y h0 h1).val + 128 := by rw [k0_off2_eq]; rfl
      have o2 : k0_off2 (tripOf y h0 h1) 2 = 0 := by rw [k0_off2_eq]; rfl
      rw [Rect.mem_set_unit]
      intro a
      match a with
      | ⟨0, _⟩ => exact ⟨by show k0_off2 _ 0 ≤ (y 0).val; omega, by show (y 0).val < k0_off2 _ 0 + 1; omega⟩
      | ⟨1, _⟩ => exact ⟨by show k0_off2 _ 1 ≤ (y 1).val; omega, by show (y 1).val < k0_off2 _ 1 + 128; omega⟩
      | ⟨2, _⟩ => exact ⟨by show k0_off2 _ 2 ≤ (y 2).val; omega, by show (y 2).val < k0_off2 _ 2 + 1024; omega⟩

/-- After the two boundary stores and the loop, the output buffer reads the block's function, whatever it held. -/
theorem read_final (𝒱 : Variants) (c : Dev nD) (bd : Option 𝒱.V) (i : grid0.Coords)
    (arg1 : Memref sig .tc .vmem S1x1024x1024 .f32) (harg1 : arg1.IsWhole)
    (arg2 : Memref sig .tc .vmem S1x1024x1024 .f32) (harg2 : arg2.IsWhole)
    (x0 : Vec F S1x1024x1024 .f32) (f1 G : BufTy.Contents (Elt F) arg2.view.ty) :
    arg2.view.read (Elt F) (arg2.view.writes (Elt F) f1
      (pb_k0_t1 (F := F) 𝒱 c bd i arg1 harg1 arg2 harg2 (harg1.unread x0) G k0_t1_loop.trips
        ++ [pieceLast x0, pieceFirst x0])) = outBlock x0 := by
  funext y
  refine View.read_writes_apply_of_pieces _ _ (outBlock x0) _ ?_ y (covered 𝒱 c bd i arg1 harg1 arg2 harg2 x0 G y)
  intro p hp x
  rcases List.mem_append.mp hp with hp | hp
  · obtain ⟨k, -, rfl⟩ := (mem_pb_iff 𝒱 c bd i arg1 harg1 arg2 harg2 x0 G p _ le_rfl).mp hp
    exact agrees_trip x0 k x
  · simp only [List.mem_cons, List.mem_nil_iff, or_false] at hp
    rcases hp with rfl | rfl
    · exact agrees_last x0 x
    · exact agrees_first x0 x

end Cert.Kernel.Body

end
-- ==== Proof.WordBodyRun.lean ====
/-
  (The program as printed, read at machine words: the statement and its proof are those of the idealized program,
  which do not depend on how a float is read.)

  The kernel body at one grid point, as a triple: from the input window's buffer reading a block `x0` and the
  output window's buffer at any contents, the body terminates with the input buffer unchanged and the output
  buffer reading the block's function `outBlock x0` — the eight bands of 128 rows it stores, two before its
  loop and one per trip, cover the block, and each is a function of `x0` alone.
-/
import proofs.«180297_j1125281431627_2_alg».proof.Proof.WordOutBlock

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple on whole staging buffers. -/
theorem kernelRun (c : Dev nD) (i : grid0.Coords) (arg1 : Memref sig .tc .vmem S1x1024x1024 .f32) (harg1 : arg1.IsWhole)
    (arg2 : Memref sig .tc .vmem S1x1024x1024 .f32) (harg2 : arg2.IsWhole) (x0 : Vec F S1x1024x1024 .f32) :
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ owns (c : Thread nD τ) arg2 fullShare (outBlock x0)) -∗ K ⟨⟩))
          ⊢ wp frame (wpE (defs₀ (F := F)) Variants.none c none) E (cc0__curvature_kernel i arg1 harg1 arg2 harg2) K := by
  intro E K
  simp only [cc0__curvature_kernel_eq_skeleton]; unfold cc0__curvature_kernel_skel
  simp only [k0_part2_eq_skeleton, k0_part3_eq_skeleton]
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr; swap; · iexact H1
  ipureintro
  simp only [View.readAt_eq_ld, harg1.read_unread]
  exact read_final Variants.none c none i arg1 harg1 arg2 harg2 x0 f1 _

end Cert.Kernel.Body

end
-- ==== Proof.WordGridRun.lean ====
/-
  (The program as printed, read at machine words: the statement and its proof are those of the idealized program,
  which do not depend on how a float is read.)

  The run of the whole program: sixteen grid points, one image each.  At point `t` the input window's buffer holds
  image `t` of the input array (its block), and the body leaves the output window's buffer at `outBlock` of that
  block, which the pipeline writes back as image `t` of the output array.  From the body's triple at a generic
  point the pipeline's frame theorem gives: every weakly fair execution of the program terminates without a fault,
  each array ends at what the write-backs leave, and every other buffer — the argument among them — is unchanged
  but for what the host operations after the region write.
-/
import proofs.«180297_j1125281431627_2_alg».proof.Proof.WordBodyRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, and that it is a whole buffer. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)

/-- What the output window's buffer holds after the body at point `t`: the block's function of the input block there. -/
def outAt (c : Dev nD) (t : Fin cfg0.N) : Vec F S1x1024x1024 .f32 := outBlock (iblk m c 0 t)

/-- The proof data of the pipeline on core `c`: the arrays as the region finds them; after the body at point `t`
    the input's buffer at its block and the output's at `outAt`; the class invariant; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the input's buffer holds its block, the output's anything; the triple applies; the
    invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  unfold outAt
  iintro ⟨HΦ, Ho, ⟨%d0, H0⟩, ⟨%d1, H1⟩⟩
  iapply ((kernelRun c (grid0.coords t) _ (hs0_0 t) _ (hs0_1 t) (iblk m c 0 t)) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, every array of the pipeline ends at what the write-backs
    leave, and every other unscoped buffer ends at what the host operations after the region make of the region's
    exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.OutBlock.lean ====
/-
  What one grid point leaves in its output block, as one function of its input block.

  The block is a 1024 × 1024 image.  The body writes it in eight horizontal bands of 128 rows: rows 0–127 from
  the slab of rows 0–128 (the row above the image reflected), rows 896–1023 from the slab of rows 895–1023 (the row
  below reflected), and, once per trip k = 0 … 5 of its loop, rows 128(k+1) … 128(k+1)+127 from the slab of the
  144 rows starting at 128k + 120.  Each band is a pure function of its slab, the bands are disjoint and tile the
  block, so the block's final contents do not depend on what the buffer held before.
-/
import proofs.«180297_j1125281431627_2_alg».proof.Proof.Gen.KernelIdeal.Frame
import proofs.«180297_j1125281431627_2_alg».proof.Proof.Gen.KernelIdeal.Loops
import proofs.«180297_j1125281431627_2_alg».proof.Proof.Gen.KernelIdeal.Skeleton
import Idealize.ShloMosaic.Lib.ValueIdx
import Idealize.ShloMosaic.Lib.Writes

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-- The slab of rows 0–128 the first band is computed from. -/
def slabFirst (x0 : Vec F S1x1024x1024 .f32) : Vec F S1x129x1024 .f32 :=
  View.ld x0 (Rect.unit (s := S1x1024x1024) ![0, 0, 0] S1x129x1024.size inb_S1x1024x1024_S1x129x1024_0_0_0)

/-- The slab of rows 895–1023 the last band is computed from. -/
def slabLast (x0 : Vec F S1x1024x1024 .f32) : Vec F S1x129x1024 .f32 :=
  View.ld x0 (Rect.unit (s := S1x1024x1024) ![0, 895, 0] S1x129x1024.size inb_S1x1024x1024_S1x129x1024_0_895_0)

/-- The slab of 144 rows from row 128k + 120 that trip `k`'s band is computed from. -/
def slabTrip (x0 : Vec F S1x1024x1024 .f32) (k : Fin k0_t1_loop.trips) : Vec F S1x144x1024 .f32 :=
  View.ld x0 (Rect.unit (s := S1x1024x1024) (k0_off1 k) S1x144x1024.size (k0_off1_inb k))

/-- The first band's store: rows 0–127. -/
def pieceFirst (x0 : Vec F S1x1024x1024 .f32) : View.Piece (Elt F) S1x1024x1024 .f32 :=
  ⟨Rect.unit ![0, 0, 0] S1x128x1024.size inb_S1x1024x1024_S1x128x1024_0_0_0, k0_pay2 (slabFirst x0)⟩

/-- The last band's store: rows 896–1023. -/
def pieceLast (x0 : Vec F S1x1024x1024 .f32) : View.Piece (Elt F) S1x1024x1024 .f32 :=
  ⟨Rect.unit ![0, 896, 0] S1x128x1024.size inb_S1x1024x1024_S1x128x1024_0_896_0, k0_pay3 (slabLast x0)⟩

/-- Trip `k`'s store: rows 128(k+1) … 128(k+1)+127. -/
def pieceTrip (x0 : Vec F S1x1024x1024 .f32) (k : Fin k0_t1_loop.trips) : View.Piece (Elt F) S1x1024x1024 .f32 :=
  ⟨Rect.unit (k0_off2 k) S1x128x1024.size (k0_off2_inb k), k0_pay4 (k0_pay1 (slabTrip x0 k))⟩

/-- One trip of the loop, run on an input buffer that reads `x0`, stores exactly its band, whatever the output held. -/
theorem tripL_eq (𝒱 : Variants) (c : Dev nD) (bd : Option 𝒱.V) (i : grid0.Coords)
    (arg1 : Memref sig .tc .vmem S1x1024x1024 .f32) (harg1 : arg1.IsWhole)
    (arg2 : Memref sig .tc .vmem S1x1024x1024 .f32) (harg2 : arg2.IsWhole)
    (x0 : Vec F S1x1024x1024 .f32) (k : Fin k0_t1_loop.trips) (f : BufTy.Contents (Elt F) arg2.view.ty) :
    tripL_k0_t1 (F := F) 𝒱 c bd i arg1 harg1 arg2 harg2 (harg1.unread x0) k f = [pieceTrip x0 k] := by
  unfold tripL_k0_t1 trip_k0_t1
  dsimp only
  unfold trip_k0_t1.sl.r pieceTrip slabTrip
  rw [View.readAt_eq_ld, harg1.read_unread]

/-- The pieces the first `n` trips have stored are exactly those trips' bands. -/
theorem mem_pb_iff (𝒱 : Variants) (c : Dev nD) (bd : Option 𝒱.V) (i : grid0.Coords)
    (arg1 : Memref sig .tc .vmem S1x1024x1024 .f32) (harg1 : arg1.IsWhole)
    (arg2 : Memref sig .tc .vmem S1x1024x1024 .f32) (harg2 : arg2.IsWhole)
    (x0 : Vec F S1x1024x1024 .f32) (G : BufTy.Contents (Elt F) arg2.view.ty)
    (p : View.Piece (Elt F) S1x1024x1024 .f32) :
    ∀ n, n ≤ k0_t1_loop.trips →
      (p ∈ pb_k0_t1 (F := F) 𝒱 c bd i arg1 harg1 arg2 harg2 (harg1.unread x0) G n
        ↔ ∃ k : Fin k0_t1_loop.trips, k.val < n ∧ p = pieceTrip x0 k)
  | 0, _ => by
    rw [pb_k0_t1.eq_1]
    constructor
    · intro h; exact absurd h List.not_mem_nil
    · rintro ⟨k, hk, _⟩; omega
  | n + 1, hn => by
    have ih := mem_pb_iff 𝒱 c bd i arg1 harg1 arg2 harg2 x0 G p n (by omega)
    have e := pb_k0_t1_succ (F := F) 𝒱 c bd i arg1 harg1 arg2 harg2 (harg1.unread x0) G ⟨n, hn⟩
    rw [show n + 1 = (⟨n, hn⟩ : Fin k0_t1_loop.trips).val + 1 from rfl, e, tripL_eq, List.mem_append,
      List.mem_singleton, ih]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.mp hk with h | h
      · exact Or.inr ⟨k, h, rfl⟩
      · exact Or.inl (congrArg (pieceTrip x0) (Fin.ext h))

/-- The loop makes six trips. -/
theorem trips_eq : k0_t1_loop.trips = 6 := by decide

theorem row_lt (y : S1x1024x1024.Idx) : (y 1).val < 1024 := (y 1).isLt
theorem col_lt (y : S1x1024x1024.Idx) : (y 2).val < 1024 := (y 2).isLt

/-- A block index in the band of 128 rows from row `o`, as an index of the band. -/
def bandIdx (o : ℕ) (y : S1x1024x1024.Idx) (h : o ≤ (y 1).val ∧ (y 1).val < o + 128) : S1x128x1024.Idx :=
  ix3 (0 : Fin 1) (⟨(y 1).val - o, by omega⟩ : Fin 128) (⟨(y 2).val, col_lt y⟩ : Fin 1024)

/-- The trip whose band holds a row outside the first and the last band. -/
def tripOf (y : S1x1024x1024.Idx) (h0 : ¬ (y 1).val < 128) (h1 : ¬ 896 ≤ (y 1).val) : Fin k0_t1_loop.trips :=
  ⟨(y 1).val / 128 - 1, by rw [trips_eq]; omega⟩

/-- What the body leaves in the output block, element by element: each band's payload of its slab. -/
def outBlock (x0 : Vec F S1x1024x1024 .f32) : S1x1024x1024.Idx → Elt F .f32 := fun y =>
  if h0 : (y 1).val < 128 then
    k0_pay2 (slabFirst x0) (bandIdx 0 y ⟨Nat.zero_le _, by omega⟩)
  else if h1 : 896 ≤ (y 1).val then
    k0_pay3 (slabLast x0) (bandIdx 896 y ⟨h1, by have := row_lt y; omega⟩)
  else
    k0_pay4 (k0_pay1 (slabTrip x0 (tripOf y h0 h1))) (bandIdx (128 * ((y 1).val / 128)) y ⟨by omega, by omega⟩)

/-- An index of a band placed in the block and read back as an index of the band is itself. -/
theorem bandIdx_emb (off : Fin 3 → ℕ) (inb : ∀ a, off a + S1x128x1024.size a ≤ S1x1024x1024.size a)
    (x : (Rect.unit (s := S1x1024x1024) off S1x128x1024.size inb).shape.Idx) (o : ℕ) (ho : off 1 = o) (h2 : off 2 = 0)
    (h : o ≤ ((Rect.unit (s := S1x1024x1024) off S1x128x1024.size inb).emb x 1).val
      ∧ ((Rect.unit (s := S1x1024x1024) off S1x128x1024.size inb).emb x 1).val < o + 128) :
    bandIdx o ((Rect.unit (s := S1x1024x1024) off S1x128x1024.size inb).emb x) h = x := by
  have e1 : ((Rect.unit (s := S1x1024x1024) off S1x128x1024.size inb).emb x 1).val = off 1 + 1 * (x 1).val := rfl
  have e2 : ((Rect.unit (s := S1x1024x1024) off S1x128x1024.size inb).emb x 2).val = off 2 + 1 * (x 2).val := rfl
  have l0 : (x 0).val < 1 := (x 0).isLt
  funext a
  apply Fin.ext
  match a with
  | ⟨0, _⟩ => show (0 : ℕ) = (x 0).val; omega
  | ⟨1, _⟩ =>
    show ((Rect.unit (s := S1x1024x1024) off S1x128x1024.size inb).emb x 1).val - o = (x 1).val
    omega
  | ⟨2, _⟩ =>
    show ((Rect.unit (s := S1x1024x1024) off S1x128x1024.size inb).emb x 2).val = (x 2).val
    omega

/-- The first band's payload is the block's function on rows 0–127. -/
theorem agrees_first (x0 : Vec F S1x1024x1024 .f32) (x : (pieceFirst x0).1.shape.Idx) :
    (pieceFirst x0).2 x = outBlock x0 ((pieceFirst x0).1.emb x) := by
  show k0_pay2 (slabFirst x0) x = outBlock x0 ((Rect.unit (s := S1x1024x1024) ![0, 0, 0] S1x128x1024.size inb_S1x1024x1024_S1x128x1024_0_0_0).emb x)
  have l1 : (x 1).val < 128 := (x 1).isLt
  have e1 : ((Rect.unit (s := S1x1024x1024) ![0, 0, 0] S1x128x1024.size inb_S1x1024x1024_S1x128x1024_0_0_0).emb x 1).val
      = 0 + 1 * (x 1).val := rfl
  unfold outBlock
  rw [dif_pos (by omega), bandIdx_emb _ _ x 0 rfl rfl]

/-- The last band's payload is the block's function on rows 896–1023. -/
theorem agrees_last (x0 : Vec F S1x1024x1024 .f32) (x : (pieceLast x0).1.shape.Idx) :
    (pieceLast x0).2 x = outBlock x0 ((pieceLast x0).1.emb x) := by
  show k0_pay3 (slabLast x0) x = outBlock x0 ((Rect.unit (s := S1x1024x1024) ![0, 896, 0] S1x128x1024.size inb_S1x1024x1024_S1x128x1024_0_896_0).emb x)
  have l1 : (x 1).val < 128 := (x 1).isLt
  have e1 : ((Rect.unit (s := S1x1024x1024) ![0, 896, 0] S1x128x1024.size inb_S1x1024x1024_S1x128x1024_0_896_0).emb x 1).val
      = 896 + 1 * (x 1).val := rfl
  unfold outBlock
  rw [dif_neg (by omega), dif_pos (by omega), bandIdx_emb _ _ x 896 rfl rfl]

/-- Trip `k`'s payload is the block's function on rows 128(k+1) … 128(k+1)+127. -/
theorem agrees_trip (x0 : Vec F S1x1024x1024 .f32) (k : Fin k0_t1_loop.trips) (x : (pieceTrip x0 k).1.shape.Idx) :
    (pieceTrip x0 k).2 x = outBlock x0 ((pieceTrip x0 k).1.emb x) := by
  show k0_pay4 (k0_pay1 (slabTrip x0 k)) x = outBlock x0 ((Rect.unit (s := S1x1024x1024) (k0_off2 k) S1x128x1024.size (k0_off2_inb k)).emb x)
  have hk : k.val < 6 := trips_eq ▸ k.isLt
  have l1 : (x 1).val < 128 := (x 1).isLt
  have o1 : k0_off2 k 1 = 128 * k.val + 128 := by rw [k0_off2_eq]; rfl
  have o2 : k0_off2 k 2 = 0 := by rw [k0_off2_eq]; rfl
  have e1 : ((Rect.unit (s := S1x1024x1024) (k0_off2 k) S1x128x1024.size (k0_off2_inb k)).emb x 1).val
      = k0_off2 k 1 + 1 * (x 1).val := rfl
  unfold outBlock
  rw [dif_neg (by omega), dif_neg (by omega)]
  have ek : tripOf ((Rect.unit (s := S1x1024x1024) (k0_off2 k) S1x128x1024.size (k0_off2_inb k)).emb x) (by omega) (by omega) = k :=
    Fin.ext (by unfold tripOf; show _ / 128 - 1 = k.val; omega)
  rw [ek, bandIdx_emb _ _ x _ (by omega) o2]

/-- Every element of the block lies in one of the eight bands. -/
theorem covered (𝒱 : Variants) (c : Dev nD) (bd : Option 𝒱.V) (i : grid0.Coords)
    (arg1 : Memref sig .tc .vmem S1x1024x1024 .f32) (harg1 : arg1.IsWhole)
    (arg2 : Memref sig .tc .vmem S1x1024x1024 .f32) (harg2 : arg2.IsWhole)
    (x0 : Vec F S1x1024x1024 .f32) (G : BufTy.Contents (Elt F) arg2.view.ty) (y : S1x1024x1024.Idx) :
    ∃ p ∈ pb_k0_t1 (F := F) 𝒱 c bd i arg1 harg1 arg2 harg2 (harg1.unread x0) G k0_t1_loop.trips
        ++ [pieceLast x0, pieceFirst x0], y ∈ p.1.set := by
  have r0 : (y 0).val < 1 := (y 0).isLt
  have r1 := row_lt y
  have r2 := col_lt y
  by_cases h0 : (y 1).val < 128
  · refine ⟨pieceFirst x0, by simp, ?_⟩
    show y ∈ (Rect.unit (s := S1x1024x1024) ![0, 0, 0] S1x128x1024.size inb_S1x1024x1024_S1x128x1024_0_0_0).set
    rw [Rect.mem_set_unit]
    intro a
    match a with
    | ⟨0, _⟩ => exact ⟨Nat.zero_le _, by show (y 0).val < 0 + 1; omega⟩
    | ⟨1, _⟩ => exact ⟨Nat.zero_le _, by show (y 1).val < 0 + 128; omega⟩
    | ⟨2, _⟩ => exact ⟨Nat.zero_le _, by show (y 2).val < 0 + 1024; omega⟩
  · by_cases h1 : 896 ≤ (y 1).val
    · refine ⟨pieceLast x0, by simp, ?_⟩
      show y ∈ (Rect.unit (s := S1x1024x1024) ![0, 896, 0] S1x128x1024.size inb_S1x1024x1024_S1x128x1024_0_896_0).set
      rw [Rect.mem_set_unit]
      intro a
      match a with
      | ⟨0, _⟩ => exact ⟨Nat.zero_le _, by show (y 0).val < 0 + 1; omega⟩
      | ⟨1, _⟩ => exact ⟨by show 896 ≤ (y 1).val; omega, by show (y 1).val < 896 + 128; omega⟩
      | ⟨2, _⟩ => exact ⟨Nat.zero_le _, by show (y 2).val < 0 + 1024; omega⟩
    · refine ⟨pieceTrip x0 (tripOf y h0 h1), List.mem_append_left _
        ((mem_pb_iff 𝒱 c bd i arg1 harg1 arg2 harg2 x0 G _ _ le_rfl).mpr ⟨tripOf y h0 h1, (tripOf y h0 h1).isLt, rfl⟩), ?_⟩
      show y ∈ (Rect.unit (s := S1x1024x1024) (k0_off2 (tripOf y h0 h1)) S1x128x1024.size (k0_off2_inb (tripOf y h0 h1))).set
      have hv : (tripOf y h0 h1).val = (y 1).val / 128 - 1 := rfl
      have o0 : k0_off2 (tripOf y h0 h1) 0 = 0 := by rw [k0_off2_eq]; rfl
      have o1 : k0_off2 (tripOf y h0 h1) 1 = 128 * (tripOf y h0 h1).val + 128 := by rw [k0_off2_eq]; rfl
      have o2 : k0_off2 (tripOf y h0 h1) 2 = 0 := by rw [k0_off2_eq]; rfl
      rw [Rect.mem_set_unit]
      intro a
      match a with
      | ⟨0, _⟩ => exact ⟨by show k0_off2 _ 0 ≤ (y 0).val; omega, by show (y 0).val < k0_off2 _ 0 + 1; omega⟩
      | ⟨1, _⟩ => exact ⟨by show k0_off2 _ 1 ≤ (y 1).val; omega, by show (y 1).val < k0_off2 _ 1 + 128; omega⟩
      | ⟨2, _⟩ => exact ⟨by show k0_off2 _ 2 ≤ (y 2).val; omega, by show (y 2).val < k0_off2 _ 2 + 1024; omega⟩

/-- After the two boundary stores and the loop, the output buffer reads the block's function, whatever it held. -/
theorem read_final (𝒱 : Variants) (c : Dev nD) (bd : Option 𝒱.V) (i : grid0.Coords)
    (arg1 : Memref sig .tc .vmem S1x1024x1024 .f32) (harg1 : arg1.IsWhole)
    (arg2 : Memref sig .tc .vmem S1x1024x1024 .f32) (harg2 : arg2.IsWhole)
    (x0 : Vec F S1x1024x1024 .f32) (f1 G : BufTy.Contents (Elt F) arg2.view.ty) :
    arg2.view.read (Elt F) (arg2.view.writes (Elt F) f1
      (pb_k0_t1 (F := F) 𝒱 c bd i arg1 harg1 arg2 harg2 (harg1.unread x0) G k0_t1_loop.trips
        ++ [pieceLast x0, pieceFirst x0])) = outBlock x0 := by
  funext y
  refine View.read_writes_apply_of_pieces _ _ (outBlock x0) _ ?_ y (covered 𝒱 c bd i arg1 harg1 arg2 harg2 x0 G y)
  intro p hp x
  rcases List.mem_append.mp hp with hp | hp
  · obtain ⟨k, -, rfl⟩ := (mem_pb_iff 𝒱 c bd i arg1 harg1 arg2 harg2 x0 G p _ le_rfl).mp hp
    exact agrees_trip x0 k x
  · simp only [List.mem_cons, List.mem_nil_iff, or_false] at hp
    rcases hp with rfl | rfl
    · exact agrees_last x0 x
    · exact agrees_first x0 x

end Cert.KernelIdeal.Body

end
-- ==== Proof.BodyRun.lean ====
/-
  The kernel body at one grid point, as a triple: from the input window's buffer reading a block `x0` and the
  output window's buffer at any contents, the body terminates with the input buffer unchanged and the output
  buffer reading the block's function `outBlock x0` — the eight bands of 128 rows it stores, two before its
  loop and one per trip, cover the block, and each is a function of `x0` alone.
-/
import proofs.«180297_j1125281431627_2_alg».proof.Proof.OutBlock

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple on whole staging buffers. -/
theorem kernelRun (c : Dev nD) (i : grid0.Coords) (arg1 : Memref sig .tc .vmem S1x1024x1024 .f32) (harg1 : arg1.IsWhole)
    (arg2 : Memref sig .tc .vmem S1x1024x1024 .f32) (harg2 : arg2.IsWhole) (x0 : Vec F S1x1024x1024 .f32) :
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ owns (c : Thread nD τ) arg2 fullShare (outBlock x0)) -∗ K ⟨⟩))
          ⊢ wp frame (wpE (defs₀ (F := F)) Variants.none c none) E (cc0__curvature_kernel i arg1 harg1 arg2 harg2) K := by
  intro E K
  simp only [cc0__curvature_kernel_eq_skeleton]; unfold cc0__curvature_kernel_skel
  simp only [k0_part2_eq_skeleton, k0_part3_eq_skeleton]
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr; swap; · iexact H1
  ipureintro
  simp only [View.readAt_eq_ld, harg1.read_unread]
  exact read_final Variants.none c none i arg1 harg1 arg2 harg2 x0 f1 _

end Cert.KernelIdeal.Body

end
-- ==== Proof.GridRun.lean ====
/-
  The run of the whole program: sixteen grid points, one image each.  At point `t` the input window's buffer holds
  image `t` of the input array (its block), and the body leaves the output window's buffer at `outBlock` of that
  block, which the pipeline writes back as image `t` of the output array.  From the body's triple at a generic
  point the pipeline's frame theorem gives: every weakly fair execution of the program terminates without a fault,
  each array ends at what the write-backs leave, and every other buffer — the argument among them — is unchanged
  but for what the host operations after the region write.
-/
import proofs.«180297_j1125281431627_2_alg».proof.Proof.BodyRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, and that it is a whole buffer. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)

/-- What the output window's buffer holds after the body at point `t`: the block's function of the input block there. -/
def outAt (c : Dev nD) (t : Fin cfg0.N) : Vec F S1x1024x1024 .f32 := outBlock (iblk m c 0 t)

/-- The proof data of the pipeline on core `c`: the arrays as the region finds them; after the body at point `t`
    the input's buffer at its block and the output's at `outAt`; the class invariant; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the input's buffer holds its block, the output's anything; the triple applies; the
    invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  unfold outAt
  iintro ⟨HΦ, Ho, ⟨%d0, H0⟩, ⟨%d1, H1⟩⟩
  iapply ((kernelRun c (grid0.coords t) _ (hs0_0 t) _ (hs0_1 t) (iblk m c 0 t)) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, every array of the pipeline ends at what the write-backs
    leave, and every other unscoped buffer ends at what the host operations after the region make of the region's
    exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.KernelValue.lean ====
/-
  The program's result as a function of its argument, index by index.

  The input array of the region is the argument with its trailing unit axis dropped; grid point `t` reads image
  `t` of it and writes image `t` of the output array, `outBlock` of that image; the sixteen images tile the output
  array, so it ends holding, at `(b, i, j)`, the block's function of image `b` at `(0, i, j)`; the result is that
  array with the unit axis put back.
-/
import proofs.«180297_j1125281431627_2_alg».proof.Proof.GridRun
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (m : (ℓ : Loc nD τ sig) → Buf (Elt F) ℓ) (ρ : Dev nD → PrngReg)

/-- Image `b` of a stack of sixteen images, as a block. -/
def imageOf (A : S16x1024x1024.Idx → Elt F .f32) (b : Fin 16) : Vec F S1x1024x1024 .f32 :=
  fun y => A (ix3 b (⟨(y 1).val, row_lt y⟩ : Fin 1024) (⟨(y 2).val, col_lt y⟩ : Fin 1024))

/-- The output array as one function of the input array: image `b` is the block's function of image `b`. -/
def outArray (A : S16x1024x1024.Idx → Elt F .f32) : S16x1024x1024.Idx → Elt F .f32 :=
  fun i => outBlock (imageOf A (⟨(i 0).val, (i 0).isLt⟩ : Fin 16))
    (ix3 (0 : Fin 1) (⟨(i 1).val, (i 1).isLt⟩ : Fin 1024) (⟨(i 2).val, (i 2).isLt⟩ : Fin 1024))

/-- Both windows' block at point `t` is image `t`: block index `(t, 0, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

theorem lt16 (t : Fin cfg0.N) : t.val < 16 := N_0 ▸ t.isLt

/-- Where an element of the input window's block at point `t` sits in the input array. -/
theorem blk0_emb (t : Fin cfg0.N) (y : S1x1024x1024.Idx) :
    ((cfg0.win 0).blk t).view.emb y
      = ix3 (⟨t.val, lt16 t⟩ : Fin 16) (⟨(y 1).val, row_lt y⟩ : Fin 1024) (⟨(y 2).val, col_lt y⟩ : Fin 1024) := by
  obtain ⟨e0, e1, e2, -, -, -⟩ := idx_facts t
  have l0 : (y 0).val < 1 := (y 0).isLt
  funext a; apply Fin.ext
  match a with
  | ⟨0, _⟩ => show win0_0.index t (0 : Fin 3) * 1 + 1 * (y 0).val = t.val; omega
  | ⟨1, _⟩ => show win0_0.index t (1 : Fin 3) * 1024 + 1 * (y 1).val = (y 1).val; omega
  | ⟨2, _⟩ => show win0_0.index t (2 : Fin 3) * 1024 + 1 * (y 2).val = (y 2).val; omega

/-- Where an element of the output window's block at point `t` sits in the output array. -/
theorem blk1_emb (t : Fin cfg0.N) (y : S1x1024x1024.Idx) :
    ((cfg0.win 1).blk t).view.emb y
      = ix3 (⟨t.val, lt16 t⟩ : Fin 16) (⟨(y 1).val, row_lt y⟩ : Fin 1024) (⟨(y 2).val, col_lt y⟩ : Fin 1024) := by
  obtain ⟨-, -, -, e0, e1, e2⟩ := idx_facts t
  have l0 : (y 0).val < 1 := (y 0).isLt
  funext a; apply Fin.ext
  match a with
  | ⟨0, _⟩ => show win0_1.index t (0 : Fin 3) * 1 + 1 * (y 0).val = t.val; omega
  | ⟨1, _⟩ => show win0_1.index t (1 : Fin 3) * 1024 + 1 * (y 1).val = (y 1).val; omega
  | ⟨2, _⟩ => show win0_1.index t (2 : Fin 3) * 1024 + 1 * (y 2).val = (y 2).val; omega

/-- The input window's block at point `t` is image `t` of the input array. -/
theorem iblk_eq (c : Dev nD) (t : Fin cfg0.N) : iblk m c 0 t = imageOf (V m c main_v0) ⟨t.val, lt16 t⟩ := by
  funext y
  show V m c main_v0 (((cfg0.win 0).blk t).view.emb y) = _
  rw [blk0_emb]
  rfl

/-- What point `t` writes back is block `t` of the output array's function. -/
theorem flushed_eq (c : Dev nD) (t : Fin cfg0.N) :
    (dats m 0 c).flushed 1 t = ((cfg0.win 1).blk t).view.read (Elt F) (outArray (V m c main_v0)) := by
  show (cfg0.win 1).cut (grid0.coords t) ((dats m 0 c).after 1 t) = _
  rw [after0_1]
  unfold outAt
  funext j
  show outBlock (iblk m c 0 t) j = outArray (V m c main_v0) (((cfg0.win 1).blk t).view.emb j)
  rw [blk1_emb, iblk_eq]
  have hj : ix3 (0 : Fin 1) (⟨(j 1).val, row_lt j⟩ : Fin 1024) (⟨(j 2).val, col_lt j⟩ : Fin 1024) = j := by
    funext a
    match a with
    | ⟨0, _⟩ => exact Fin.ext (by have l0 : (j 0).val < 1 := (j 0).isLt; show (0 : ℕ) = (j 0).val; omega)
    | ⟨1, _⟩ => rfl
    | ⟨2, _⟩ => rfl
  exact congrArg (outBlock _) hj.symm

/-- An index of the output array is in point `t`'s block iff each coordinate is in the block's range. -/
theorem mem_blk1 (t : Fin cfg0.N) (i : S16x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v1).slice (win0_1.rect t)).set ↔ _
  rw [View.set_slice_whole, Rect.mem_set_unit]
  exact Iff.rfl

/-- The sixteen images tile the output array. -/
theorem cover1 (i : S16x1024x1024.Idx) :
    ∃ t : Fin cfg0.N, (cfg0.win 1).flush t = true ∧ i ∈ ((cfg0.win 1).blk t).view.set := by
  have h0 : (i 0).val < 16 := (i 0).isLt
  have h1 : (i 1).val < 1024 := (i 1).isLt
  have h2 : (i 2).val < 1024 := (i 2).isLt
  have hN : (i 0).val < cfg0.N := by rw [show cfg0.N = grid0.N from rfl, N_0]; exact h0
  obtain ⟨-, -, -, e0, e1, e2⟩ := idx_facts ⟨(i 0).val, hN⟩
  refine ⟨⟨(i 0).val, hN⟩, flush0_1 _, (mem_blk1 _ i).mpr fun a => ?_⟩
  match a with
  | ⟨0, _⟩ =>
    show win0_1.index ⟨(i 0).val, hN⟩ (0 : Fin 3) * 1 ≤ (i 0).val ∧ (i 0).val < win0_1.index ⟨(i 0).val, hN⟩ (0 : Fin 3) * 1 + 1
    have : (⟨(i 0).val, hN⟩ : Fin cfg0.N).val = (i 0).val := rfl
    omega
  | ⟨1, _⟩ =>
    show win0_1.index ⟨(i 0).val, hN⟩ (1 : Fin 3) * 1024 ≤ (i 1).val ∧ (i 1).val < win0_1.index ⟨(i 0).val, hN⟩ (1 : Fin 3) * 1024 + 1024
    omega
  | ⟨2, _⟩ =>
    show win0_1.index ⟨(i 0).val, hN⟩ (2 : Fin 3) * 1024 ≤ (i 2).val ∧ (i 2).val < win0_1.index ⟨(i 0).val, hN⟩ (2 : Fin 3) * 1024 + 1024
    omega

/-- The output array after the run. -/
theorem final1 (c : Dev nD) : (dats m 0 c).arrAt 1 cfg0.N = outArray (V m c main_v0) :=
  (dats m 0 c).arrAt_eq_of_cover 1 _ (fun t _ => flushed_eq m c t) cover1

/-- The region's input array is the argument with its unit axis dropped. -/
theorem V_main_v0 (c : Dev nD) : (V m c main_v0 : S16x1024x1024.Idx → Elt F .f32)
    = shapeCast S16x1024x1024 (m ((c : Thread nD τ).loc main_arg0)) shapeCasts_S16x1024x1024x1_S16x1024x1024 := by
  show StableHlo.after hostOps0 (fun b => m (c, b)) (Proc.devRef .tc main_v0) = _
  after_results
  rfl

/-- The program's result, as the region's output array with the unit axis put back. -/
def resultOf (u : S16x1024x1024x1.Idx → Elt F .f32) : S16x1024x1024x1.Idx → Elt F .f32 :=
  broadcastInDim S16x1024x1024x1 ![0, 1, 2] bcast_S16x1024x1024_S16x1024x1024x1_0_1_2
    (outArray (shapeCast S16x1024x1024 u shapeCasts_S16x1024x1024x1_S16x1024x1024))

/-- What the host operation after the region leaves in the result buffer. -/
theorem tail_main_v2 (c : Dev nD) :
    Pipeline.afterTail₀ cfgs (dats m) 0 (V0 m) [hostOps1] c main_v2 = resultOf (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = outArray (V m c main_v0) :=
    (Pipeline.withArrays_arr spec0 launch0.win.arr_inj c _ _ 1).trans (final1 m c)
  rw [e, V_main_v0]
  rfl

/-- The run re-posted: the result buffer ends at `resultOf` of the argument, the argument unchanged. -/
theorem value_run : θ_run defs (onTc (τ := τ) (main (F := F))) ⟨m, fun _ => 0, ρ⟩ (fun r => ∀ c : Dev nD,
      r.2.mem ((c.tc : Thread nD τ).loc main_v2) = resultOf (m ((c.tc : Thread nD τ).loc main_arg0))
      ∧ r.2.mem ((c.tc : Thread nD τ).loc main_arg0) = m ((c.tc : Thread nD τ).loc main_arg0)) :=
  (θ_run defs _ _).mono (fun _ h c =>
      ⟨((h c).2 main_v2 (Pipeline.mem_restRefs_of main_v2 (by decide) (by decide))).trans (tail_main_v2 m c),
        ((h c).2 main_arg0 (Pipeline.mem_restRefs_of main_arg0 (by decide) (by decide))).trans (W_main_arg0 m (dats m) c)⟩)
    (run_main m ρ)

end Cert.KernelIdeal.Body

end
-- ==== Proof.Stencil.lean ====
/-
  The curvature stencil on a 1024 × 1024 image with a one-pixel reflected border, as two formulas of the
  seven neighbouring pixels a result pixel depends on.

  A pixel (i, j) reads its centre c = u(i, j), the vertical neighbours u(i ∓ 1, j), the horizontal
  neighbours u(i, j ∓ 1) and the two diagonal neighbours u(i - 1, j + 1), u(i + 1, j - 1); an index that
  leaves the image is reflected about the edge (-1 ↦ 1, 1024 ↦ 1022).  With the six differences
    dxf = u(i+1,j) - c,  dxb = c - u(i-1,j),  dyf = u(i,j+1) - c,  dyb = c - u(i,j-1),
    dsbf = u(i-1,j+1) - u(i-1,j),  dslf = u(i+1,j-1) - u(i,j-1)
  and ε the positive constant both programs add under the root, one form multiplies by reciprocal roots,
    (dxf + dyf)·(dxf² + dyf² + ε)^(-1/2) - dxb·(dxb² + dsbf² + ε)^(-1/2) - dyb·(dslf² + dyb² + ε)^(-1/2),
  the other divides by roots,
    dxf/F - dxb/G + dyf/F - dyb/H,  F = √(dxf² + dyf² + ε), G = √(dxb² + dsbf² + ε), H = √(dslf² + dyb² + ε).
  On real (finite) pixels the radicands are positive reals, a reciprocal root is the reciprocal of the root,
  and the two forms agree by distributing the common factor 1/F.
-/
import Idealize.ShloMosaic.PureOps.Ideal
import Idealize.ShloMosaic.Lib.ValueIdx

noncomputable section

namespace Cert.Stencil

open Idealize.ShloMosaic

/-- The neighbour below an index, reflected at the lower edge: `i - 1`, and `1` at `i = 0`. -/
def prevR (i : Fin 1024) : Fin 1024 := if i.val = 0 then ⟨1, by decide⟩ else ⟨i.val - 1, by omega⟩

/-- The neighbour above an index, reflected at the upper edge: `i + 1`, and `1022` at `i = 1023`. -/
def nextR (i : Fin 1024) : Fin 1024 := if h : i.val = 1023 then ⟨1022, by decide⟩ else ⟨i.val + 1, by omega⟩

/-- The constant added under every root: the binary32 value nearest 1e-16, read as an extended real. -/
def eps : EReal := Ideal.ofBits .f32 0x24E69595#32

/-- The result pixel from its seven neighbours, with reciprocal roots: `c` the centre, `mi pi` the
    rows before and after, `mj pj` the columns before and after, `mipj` row before / column after,
    `pimj` row after / column before. -/
def rsqrtForm (c mi pi mj pj mipj pimj : EReal) : EReal :=
  ((pi - c) + (pj - c)) * Ideal.rsqrt ((pi - c) * (pi - c) + (pj - c) * (pj - c) + eps)
    - (c - mi) * Ideal.rsqrt ((c - mi) * (c - mi) + (mipj - mi) * (mipj - mi) + eps)
    - (c - mj) * Ideal.rsqrt ((pimj - mj) * (pimj - mj) + (c - mj) * (c - mj) + eps)

/-- The same pixel with quotients by roots, in the order dxf/F - dxb/G + dyf/F - dyb/H. -/
def sqrtForm (c mi pi mj pj mipj pimj : EReal) : EReal :=
  Ideal.div (pi - c) (Ideal.sqrt ((pi - c) * (pi - c) + (pj - c) * (pj - c) + eps))
    - Ideal.div (c - mi) (Ideal.sqrt ((c - mi) * (c - mi) + (mipj - mi) * (mipj - mi) + eps))
    + Ideal.div (pj - c) (Ideal.sqrt ((pi - c) * (pi - c) + (pj - c) * (pj - c) + eps))
    - Ideal.div (c - mj) (Ideal.sqrt ((pimj - mj) * (pimj - mj) + (c - mj) * (c - mj) + eps))

/-- A form applied at pixel `(i, j)` of image `img`: the seven reflected neighbours in the forms' order. -/
def atPixel (form : EReal → EReal → EReal → EReal → EReal → EReal → EReal → EReal)
    (img : Fin 1024 → Fin 1024 → EReal) (i j : Fin 1024) : EReal :=
  form (img i j) (img (prevR i) j) (img (nextR i) j) (img i (prevR j)) (img i (nextR j))
    (img (prevR i) (nextR j)) (img (nextR i) (prevR j))

/-- Image `b` of a batch `u : [16, 1024, 1024, 1]`. -/
def image (u : (⟨4, ![16, 1024, 1024, 1]⟩ : Shape).Idx → EReal) (b : Fin 16) : Fin 1024 → Fin 1024 → EReal :=
  fun i j => u (ValueIdx.ix4 b i j (0 : Fin 1))

end Cert.Stencil

end
-- ==== Proof.Payload.lean ====
/-
  The three pure payloads of the kernel body, read at an index.

  Each chunk of 128 result rows is computed from 130 rows of the image (the chunk and one row on each
  side), obtained from a loaded slab: the first chunk puts slab row 1 in front (row -1 reflected), the
  last puts slab row 127 behind (row 1024 reflected to 1022), a middle chunk cuts rows 7..136 of a
  144-row slab.  The 130 rows are padded by one reflected column on each side (column 1 in front,
  column 1022 behind), seven 128 × 1024 windows of the padded array are taken at offsets
  (1,1) (0,1) (2,1) (1,0) (1,2) (0,2) (2,0) — centre, row before, row after, column before, column
  after, row before & column after, row after & column before — and the reciprocal-root formula is
  applied pointwise.  Read at (p, q) this is the stencil's reciprocal-root form of the seven
  neighbours, with the column neighbours reflected at the image's edge.
-/
import proofs.«180297_j1125281431627_2_alg».proof.Proof.Gen.KernelIdeal.Skeleton
import proofs.«180297_j1125281431627_2_alg».proof.Proof.Stencil
import Idealize.ShloMosaic.Lib.ValueLayout

noncomputable section

namespace Cert.KernelIdeal.Payload

open Idealize.ShloMosaic Idealize.ShloMosaic.ValueIdx Cert.Stencil Cert.KernelIdeal

/-- The column of the 1024-column array that column `s` of the padded 1026-column array shows: column
    `s - 1`, with the two border columns reflected (`0 ↦ 1`, `1025 ↦ 1022`). -/
def colR (s : Fin 1026) : Fin 1024 :=
  if h0 : s.val = 0 then ⟨1, by decide⟩ else if h1 : s.val = 1025 then ⟨1022, by decide⟩ else ⟨s.val - 1, by omega⟩

/-- The three pieces laid side by side: column 1, the array, column 1022. -/
def padPieces (w : FVec Ideal S130x1024 .f32) : List ((s : Shape) × (s.Idx → Ideal .f32)) :=
  [⟨S130x1, extractStridedSlice S130x1 ![0, 1] w Gen.slices_S130x1024_o0_1_S130x1⟩, ⟨S130x1024, w⟩,
    ⟨S130x1, extractStridedSlice S130x1 ![0, 1022] w Gen.slices_S130x1024_o0_1022_S130x1⟩]

/-- The 130-row array padded by one reflected column on each side. -/
def padCols (w : FVec Ideal S130x1024 .f32) : FVec Ideal S130x1026 .f32 :=
  concatenate S130x1026 1 (padPieces w) Gen.concatenates_S130x1_S130x1024_S130x1_S130x1026_d1

theorem padCols_apply (w : FVec Ideal S130x1024 .f32) (r : Fin 130) (s : Fin 1026) :
    padCols w (ix2 r s) = w (ix2 r (colR s)) := by
  unfold padCols colR
  by_cases h0 : s.val = 0
  · rw [dif_pos h0]
    refine Eq.trans (concatenate_apply_piece (t := S130x1026) (1 : Fin 2) (padPieces w) Gen.concatenates_S130x1_S130x1024_S130x1_S130x1026_d1
      (ix2 r s) 0 (show 0 < 3 by decide) S130x1 _ rfl rfl 0 rfl (ix2 r (0 : Fin 1)) (fun b hb => ?_) ?_) ?_
    · match b with
      | ⟨0, _⟩ => rfl
      | ⟨1, _⟩ => exact absurd rfl hb
    · show 0 + 0 = s.val
      omega
    · exact slice2_axis1_apply 1 w _ r (0 : Fin 1) _ rfl
  · rw [dif_neg h0]
    by_cases h1 : s.val = 1025
    · rw [dif_pos h1]
      refine Eq.trans (concatenate_apply_piece (t := S130x1026) (1 : Fin 2) (padPieces w) Gen.concatenates_S130x1_S130x1024_S130x1_S130x1026_d1
        (ix2 r s) 2 (show 2 < 3 by decide) S130x1 _ rfl rfl 1025 rfl (ix2 r (0 : Fin 1)) (fun b hb => ?_) ?_) ?_
      · match b with
        | ⟨0, _⟩ => rfl
        | ⟨1, _⟩ => exact absurd rfl hb
      · show 1025 + 0 = s.val
        omega
      · exact slice2_axis1_apply 1022 w _ r (0 : Fin 1) _ rfl
    · rw [dif_neg h1]
      refine concatenate_apply_piece (t := S130x1026) (1 : Fin 2) (padPieces w) Gen.concatenates_S130x1_S130x1024_S130x1_S130x1026_d1
        (ix2 r s) 1 (show 1 < 3 by decide) S130x1024 _ rfl rfl 1 rfl _ (fun b hb => ?_) ?_
      · match b with
        | ⟨0, _⟩ => rfl
        | ⟨1, _⟩ => exact absurd rfl hb
      · show 1 + (s.val - 1) = s.val
        omega

/-! ## The reflected columns against the stencil's neighbours -/

theorem colR_mid (q : Fin 1024) : colR ⟨1 + q.val, by omega⟩ = q := by
  unfold colR
  rw [dif_neg (by show ¬ (1 + q.val = 0); omega), dif_neg (by show ¬ (1 + q.val = 1025); omega)]
  apply Fin.ext
  show 1 + q.val - 1 = q.val
  omega

theorem colR_left (q : Fin 1024) : colR ⟨0 + q.val, by omega⟩ = prevR q := by
  unfold colR prevR
  by_cases h : q.val = 0
  · rw [dif_pos (by show 0 + q.val = 0; omega), if_pos h]
  · rw [dif_neg (by show ¬ (0 + q.val = 0); omega), dif_neg (by show ¬ (0 + q.val = 1025); omega), if_neg h]
    apply Fin.ext
    show 0 + q.val - 1 = q.val - 1
    omega

theorem colR_right (q : Fin 1024) : colR ⟨2 + q.val, by omega⟩ = nextR q := by
  unfold colR nextR
  by_cases h : q.val = 1023
  · rw [dif_neg (by show ¬ (2 + q.val = 0); omega), dif_pos (by show 2 + q.val = 1025; omega), dif_pos h]
  · rw [dif_neg (by show ¬ (2 + q.val = 0); omega), dif_neg (by show ¬ (2 + q.val = 1025); omega), dif_neg h]
    apply Fin.ext
    show 2 + q.val - 1 = q.val + 1
    omega

/-- A 128 × 1024 window of the padded array at offset `(a, b)`, read at `(p, q)`: row `a + p` of the
    130-row array, at the column that padded column `b + q` shows. -/
theorem window_apply (w : FVec Ideal S130x1024 .f32) (a b : Nat) (h : S130x1026.Slices ![a, b] S128x1024)
    (p : Fin 128) (q : Fin 1024) (r : Fin 130) (c : Fin 1024) (hr : r.val = a + p.val)
    (hb : b + q.val < 1026) (hc : colR ⟨b + q.val, hb⟩ = c) :
    extractStridedSlice S128x1024 ![a, b] (padCols w) h (ix2 p q) = w (ix2 r c) := by
  refine Eq.trans (extractStridedSlice_apply ![a, b] (padCols w) h (ix2 p q) (ix2 r ⟨b + q.val, hb⟩) (fun ax => ?_)) ?_
  · match ax with
    | ⟨0, _⟩ => exact hr
    | ⟨1, _⟩ => rfl
  · rw [padCols_apply, hc]

/-! ## The pointwise formula -/

/-- The formula of the seven shifted windows, operation by operation as the kernel computes it. -/
def formula (c mi pi mj pj mipj pimj : FVec Ideal S128x1024 .f32) : FVec Ideal S128x1024 .f32 :=
  let dxf := subf pi c
  let dxb := subf c mi
  let dyf := subf pj c
  let dyb := subf c mj
  let dsbf := subf mipj mi
  let dslf := subf pimj mj
  let e : FVec Ideal S128x1024 .f32 := broadcast S128x1024 (Scalar.ofBits .f32 0x24E69595#32)
  subf (subf (mulf (addf dxf dyf) (rsqrt (addf (addf (mulf dxf dxf) (mulf dyf dyf)) e)))
      (mulf dxb (rsqrt (addf (addf (mulf dxb dxb) (mulf dsbf dsbf)) e))))
    (mulf dyb (rsqrt (addf (addf (mulf dslf dslf) (mulf dyb dyb)) e)))

theorem formula_apply (c mi pi mj pj mipj pimj : FVec Ideal S128x1024 .f32) (i : S128x1024.Idx) :
    formula c mi pi mj pj mipj pimj i = rsqrtForm (c i) (mi i) (pi i) (mj i) (pj i) (mipj i) (pimj i) := rfl

/-- What every chunk computes from its 130 rows (the chunk's 128 rows and one row on each side): pad the
    columns, take the seven windows, apply the formula. -/
def core (w : FVec Ideal S130x1024 .f32) : FVec Ideal S128x1024 .f32 :=
  formula
    (extractStridedSlice S128x1024 ![1, 1] (padCols w) Gen.slices_S130x1026_o1_1_S128x1024)
    (extractStridedSlice S128x1024 ![0, 1] (padCols w) Gen.slices_S130x1026_o0_1_S128x1024)
    (extractStridedSlice S128x1024 ![2, 1] (padCols w) Gen.slices_S130x1026_o2_1_S128x1024)
    (extractStridedSlice S128x1024 ![1, 0] (padCols w) Gen.slices_S130x1026_o1_0_S128x1024)
    (extractStridedSlice S128x1024 ![1, 2] (padCols w) Gen.slices_S130x1026_o1_2_S128x1024)
    (extractStridedSlice S128x1024 ![0, 2] (padCols w) Gen.slices_S130x1026_o0_2_S128x1024)
    (extractStridedSlice S128x1024 ![2, 0] (padCols w) Gen.slices_S130x1026_o2_0_S128x1024)

/-- Row `p` of the result reads rows `p`, `p + 1`, `p + 2` of the 130-row array (before, centre, after)
    at columns `q` and its two reflected neighbours. -/
theorem core_apply (w : FVec Ideal S130x1024 .f32) (p : Fin 128) (q : Fin 1024) :
    core w (ix2 p q)
      = rsqrtForm (w (ix2 ⟨p.val + 1, by omega⟩ q)) (w (ix2 ⟨p.val, by omega⟩ q)) (w (ix2 ⟨p.val + 2, by omega⟩ q))
          (w (ix2 ⟨p.val + 1, by omega⟩ (prevR q))) (w (ix2 ⟨p.val + 1, by omega⟩ (nextR q)))
          (w (ix2 ⟨p.val, by omega⟩ (nextR q))) (w (ix2 ⟨p.val + 2, by omega⟩ (prevR q))) := by
  unfold core
  rw [formula_apply]
  rw [window_apply w 1 1 _ p q ⟨p.val + 1, by omega⟩ q (by show p.val + 1 = 1 + p.val; omega) (by omega) (colR_mid q),
    window_apply w 0 1 _ p q ⟨p.val, by omega⟩ q (by show p.val = 0 + p.val; omega) (by omega) (colR_mid q),
    window_apply w 2 1 _ p q ⟨p.val + 2, by omega⟩ q (by show p.val + 2 = 2 + p.val; omega) (by omega) (colR_mid q),
    window_apply w 1 0 _ p q ⟨p.val + 1, by omega⟩ (prevR q) (by show p.val + 1 = 1 + p.val; omega) (by omega) (colR_left q),
    window_apply w 1 2 _ p q ⟨p.val + 1, by omega⟩ (nextR q) (by show p.val + 1 = 1 + p.val; omega) (by omega) (colR_right q),
    window_apply w 0 2 _ p q ⟨p.val, by omega⟩ (nextR q) (by show p.val = 0 + p.val; omega) (by omega) (colR_right q),
    window_apply w 2 0 _ p q ⟨p.val + 2, by omega⟩ (prevR q) (by show p.val + 2 = 2 + p.val; omega) (by omega) (colR_left q)]

/-! ## The 130 rows of each chunk -/

/-- First chunk's pieces: slab row 1 (the reflection of row -1), then the slab's rows 0..128. -/
def piecesFirst (v0 : Vec Ideal S1x129x1024 .f32) : List ((s : Shape) × (s.Idx → Ideal .f32)) :=
  [⟨S1x1024, extractStridedSlice S1x1024 ![1, 0] (shapeCast S129x1024 v0 Gen.shapeCasts_S1x129x1024_S129x1024)
      Gen.slices_S129x1024_o1_0_S1x1024⟩,
    ⟨S129x1024, shapeCast S129x1024 v0 Gen.shapeCasts_S1x129x1024_S129x1024⟩]

/-- First chunk, assembled. -/
def rowsFirst (v0 : Vec Ideal S1x129x1024 .f32) : FVec Ideal S130x1024 .f32 :=
  concatenate S130x1024 0 (piecesFirst v0) Gen.concatenates_S1x1024_S129x1024_S130x1024_d0

theorem rowsFirst_apply (v0 : Vec Ideal S1x129x1024 .f32) (r : Fin 130) (q : Fin 1024) (k : Fin 129)
    (hk : k.val = if r.val = 0 then 1 else r.val - 1) :
    rowsFirst v0 (ix2 r q) = v0 (ix3 (0 : Fin 1) k q) := by
  unfold rowsFirst
  by_cases h0 : r.val = 0
  · rw [if_pos h0] at hk
    refine Eq.trans (concatenate_apply_piece (t := S130x1024) (0 : Fin 2) (piecesFirst v0) Gen.concatenates_S1x1024_S129x1024_S130x1024_d0
      (ix2 r q) 0 (show 0 < 2 by decide) S1x1024 _ rfl rfl 0 rfl (ix2 (0 : Fin 1) q) (fun b hb => ?_) ?_) ?_
    · match b with
      | ⟨0, _⟩ => exact absurd rfl hb
      | ⟨1, _⟩ => rfl
    · show 0 + 0 = r.val
      omega
    · refine Eq.trans (slice2_axis0_apply 1 _ _ (0 : Fin 1) q k (by rw [hk]; rfl)) ?_
      exact shapeCast_1ab_ab_apply v0 _ k q
  · rw [if_neg h0] at hk
    refine Eq.trans (concatenate_apply_piece (t := S130x1024) (0 : Fin 2) (piecesFirst v0) Gen.concatenates_S1x1024_S129x1024_S130x1024_d0
      (ix2 r q) 1 (show 1 < 2 by decide) S129x1024 _ rfl rfl 1 rfl (ix2 k q) (fun b hb => ?_) ?_) ?_
    · match b with
      | ⟨0, _⟩ => exact absurd rfl hb
      | ⟨1, _⟩ => rfl
    · show 1 + k.val = r.val
      omega
    · exact shapeCast_1ab_ab_apply v0 _ k q

/-- Last chunk's pieces: the slab's rows 0..128, then slab row 127 (the reflection of the row past the end). -/
def piecesLast (v47 : Vec Ideal S1x129x1024 .f32) : List ((s : Shape) × (s.Idx → Ideal .f32)) :=
  [⟨S129x1024, shapeCast S129x1024 v47 Gen.shapeCasts_S1x129x1024_S129x1024⟩,
    ⟨S1x1024, extractStridedSlice S1x1024 ![127, 0] (shapeCast S129x1024 v47 Gen.shapeCasts_S1x129x1024_S129x1024)
      Gen.slices_S129x1024_o127_0_S1x1024⟩]

/-- Last chunk, assembled. -/
def rowsLast (v47 : Vec Ideal S1x129x1024 .f32) : FVec Ideal S130x1024 .f32 :=
  concatenate S130x1024 0 (piecesLast v47) Gen.concatenates_S129x1024_S1x1024_S130x1024_d0

theorem rowsLast_apply (v47 : Vec Ideal S1x129x1024 .f32) (r : Fin 130) (q : Fin 1024) (k : Fin 129)
    (hk : k.val = if r.val = 129 then 127 else r.val) :
    rowsLast v47 (ix2 r q) = v47 (ix3 (0 : Fin 1) k q) := by
  unfold rowsLast
  by_cases h0 : r.val = 129
  · rw [if_pos h0] at hk
    refine Eq.trans (concatenate_apply_piece (t := S130x1024) (0 : Fin 2) (piecesLast v47) Gen.concatenates_S129x1024_S1x1024_S130x1024_d0
      (ix2 r q) 1 (show 1 < 2 by decide) S1x1024 _ rfl rfl 129 rfl (ix2 (0 : Fin 1) q) (fun b hb => ?_) ?_) ?_
    · match b with
      | ⟨0, _⟩ => exact absurd rfl hb
      | ⟨1, _⟩ => rfl
    · show 129 + 0 = r.val
      omega
    · refine Eq.trans (slice2_axis0_apply 127 _ _ (0 : Fin 1) q k (by rw [hk]; rfl)) ?_
      exact shapeCast_1ab_ab_apply v47 _ k q
  · rw [if_neg h0] at hk
    refine Eq.trans (concatenate_apply_piece (t := S130x1024) (0 : Fin 2) (piecesLast v47) Gen.concatenates_S129x1024_S1x1024_S130x1024_d0
      (ix2 r q) 0 (show 0 < 2 by decide) S129x1024 _ rfl rfl 0 rfl (ix2 k q) (fun b hb => ?_) ?_) ?_
    · match b with
      | ⟨0, _⟩ => exact absurd rfl hb
      | ⟨1, _⟩ => rfl
    · show 0 + k.val = r.val
      omega
    · exact shapeCast_1ab_ab_apply v47 _ k q

/-- A middle chunk: rows 7..136 of the 144-row slab. -/
def rowsMid (v100 : Vec Ideal S1x144x1024 .f32) : FVec Ideal S130x1024 .f32 :=
  extractStridedSlice S130x1024 ![7, 0] (shapeCast S144x1024 v100 Gen.shapeCasts_S1x144x1024_S144x1024)
    Gen.slices_S144x1024_o7_0_S130x1024

theorem rowsMid_apply (v100 : Vec Ideal S1x144x1024 .f32) (r : Fin 130) (q : Fin 1024) (k : Fin 144)
    (hk : k.val = 7 + r.val) :
    rowsMid v100 (ix2 r q) = v100 (ix3 (0 : Fin 1) k q) := by
  unfold rowsMid
  refine Eq.trans (slice2_axis0_apply 7 _ _ r q k hk) ?_
  exact shapeCast_1ab_ab_apply v100 _ k q

/-! ## The payloads -/

theorem pay2_eq (v0 : Vec Ideal S1x129x1024 .f32) :
    Gen.k0_pay2 (F := Ideal) v0 = shapeCast S1x128x1024 (core (rowsFirst v0)) Gen.shapeCasts_S128x1024_S1x128x1024 := rfl

theorem pay3_eq (v47 : Vec Ideal S1x129x1024 .f32) :
    Gen.k0_pay3 (F := Ideal) v47 = shapeCast S1x128x1024 (core (rowsLast v47)) Gen.shapeCasts_S128x1024_S1x128x1024 := rfl

theorem pay1_eq (v100 : Vec Ideal S1x144x1024 .f32) :
    Gen.k0_pay4 (F := Ideal) (Gen.k0_pay1 (F := Ideal) v100)
      = shapeCast S1x128x1024 (core (rowsMid v100)) Gen.shapeCasts_S128x1024_S1x128x1024 := rfl

/-- The first chunk's store at `(0, p, q)`: the slab holds image rows 0..128, so result row `p` has
    its centre on slab row `p`, the row after on `p + 1`, and the row before on `p - 1`, reflected to
    row 1 at `p = 0`. -/
theorem pay2_apply (v0 : Vec Ideal S1x129x1024 .f32) (p : Fin 128) (q : Fin 1024) :
    Gen.k0_pay2 (F := Ideal) v0 (ix3 (0 : Fin 1) p q)
      = rsqrtForm (v0 (ix3 0 ⟨p.val, by omega⟩ q))
          (v0 (ix3 0 ⟨if p.val = 0 then 1 else p.val - 1, by split <;> omega⟩ q))
          (v0 (ix3 0 ⟨p.val + 1, by omega⟩ q))
          (v0 (ix3 0 ⟨p.val, by omega⟩ (prevR q)))
          (v0 (ix3 0 ⟨p.val, by omega⟩ (nextR q)))
          (v0 (ix3 0 ⟨if p.val = 0 then 1 else p.val - 1, by split <;> omega⟩ (nextR q)))
          (v0 (ix3 0 ⟨p.val + 1, by omega⟩ (prevR q))) := by
  have ec : ∀ s : Fin 1024, rowsFirst v0 (ix2 ⟨p.val + 1, by omega⟩ s) = v0 (ix3 0 ⟨p.val, by omega⟩ s) :=
    fun s => rowsFirst_apply v0 _ s _ (by
      show p.val = if p.val + 1 = 0 then 1 else p.val + 1 - 1
      rw [if_neg (by omega)]; omega)
  have eb : ∀ s : Fin 1024, rowsFirst v0 (ix2 ⟨p.val, by omega⟩ s)
      = v0 (ix3 0 ⟨if p.val = 0 then 1 else p.val - 1, by split <;> omega⟩ s) :=
    fun s => rowsFirst_apply v0 _ s _ rfl
  have ea : ∀ s : Fin 1024, rowsFirst v0 (ix2 ⟨p.val + 2, by omega⟩ s) = v0 (ix3 0 ⟨p.val + 1, by omega⟩ s) :=
    fun s => rowsFirst_apply v0 _ s _ (by
      show p.val + 1 = if p.val + 2 = 0 then 1 else p.val + 2 - 1
      rw [if_neg (by omega)]; omega)
  rw [pay2_eq, shapeCast_ab_1ab_apply, core_apply, ec q, eb q, ea q, ec (prevR q), ec (nextR q), eb (nextR q),
    ea (prevR q)]

/-- The last chunk's store at `(0, p, q)`: the slab holds image rows 895..1023, so result row `p` (image
    row 896 + p) has its centre on slab row `p + 1`, the row before on `p`, and the row after on
    `p + 2`, reflected to slab row 127 (image row 1022) at `p = 127`. -/
theorem pay3_apply (v47 : Vec Ideal S1x129x1024 .f32) (p : Fin 128) (q : Fin 1024) :
    Gen.k0_pay3 (F := Ideal) v47 (ix3 (0 : Fin 1) p q)
      = rsqrtForm (v47 (ix3 0 ⟨p.val + 1, by omega⟩ q))
          (v47 (ix3 0 ⟨p.val, by omega⟩ q))
          (v47 (ix3 0 ⟨if p.val = 127 then 127 else p.val + 2, by split <;> omega⟩ q))
          (v47 (ix3 0 ⟨p.val + 1, by omega⟩ (prevR q)))
          (v47 (ix3 0 ⟨p.val + 1, by omega⟩ (nextR q)))
          (v47 (ix3 0 ⟨p.val, by omega⟩ (nextR q)))
          (v47 (ix3 0 ⟨if p.val = 127 then 127 else p.val + 2, by split <;> omega⟩ (prevR q))) := by
  have ec : ∀ s : Fin 1024, rowsLast v47 (ix2 ⟨p.val + 1, by omega⟩ s) = v47 (ix3 0 ⟨p.val + 1, by omega⟩ s) :=
    fun s => rowsLast_apply v47 _ s _ (by
      show p.val + 1 = if p.val + 1 = 129 then 127 else p.val + 1
      rw [if_neg (by omega)])
  have eb : ∀ s : Fin 1024, rowsLast v47 (ix2 ⟨p.val, by omega⟩ s) = v47 (ix3 0 ⟨p.val, by omega⟩ s) :=
    fun s => rowsLast_apply v47 _ s _ (by
      show p.val = if p.val = 129 then 127 else p.val
      rw [if_neg (by omega)])
  have ea : ∀ s : Fin 1024, rowsLast v47 (ix2 ⟨p.val + 2, by omega⟩ s)
      = v47 (ix3 0 ⟨if p.val = 127 then 127 else p.val + 2, by split <;> omega⟩ s) :=
    fun s => rowsLast_apply v47 _ s _ (by
      show (if p.val = 127 then 127 else p.val + 2) = if p.val + 2 = 129 then 127 else p.val + 2
      by_cases h : p.val = 127
      · rw [if_pos h, if_pos (by omega)]
      · rw [if_neg h, if_neg (by omega)])
  rw [pay3_eq, shapeCast_ab_1ab_apply, core_apply, ec q, eb q, ea q, ec (prevR q), ec (nextR q), eb (nextR q),
    ea (prevR q)]

/-- A middle chunk's store at `(0, p, q)`: the slab holds image rows `start - 8 .. start + 135`, so result
    row `p` (image row `start + p`) has its centre on slab row `p + 8`, the rows before and after on
    `p + 7` and `p + 9`. -/
theorem pay1_apply (v100 : Vec Ideal S1x144x1024 .f32) (p : Fin 128) (q : Fin 1024) :
    Gen.k0_pay4 (F := Ideal) (Gen.k0_pay1 (F := Ideal) v100) (ix3 (0 : Fin 1) p q)
      = rsqrtForm (v100 (ix3 0 ⟨p.val + 8, by omega⟩ q))
          (v100 (ix3 0 ⟨p.val + 7, by omega⟩ q))
          (v100 (ix3 0 ⟨p.val + 9, by omega⟩ q))
          (v100 (ix3 0 ⟨p.val + 8, by omega⟩ (prevR q)))
          (v100 (ix3 0 ⟨p.val + 8, by omega⟩ (nextR q)))
          (v100 (ix3 0 ⟨p.val + 7, by omega⟩ (nextR q)))
          (v100 (ix3 0 ⟨p.val + 9, by omega⟩ (prevR q))) := by
  have ec : ∀ s : Fin 1024, rowsMid v100 (ix2 ⟨p.val + 1, by omega⟩ s) = v100 (ix3 0 ⟨p.val + 8, by omega⟩ s) :=
    fun s => rowsMid_apply v100 _ s _ (by show p.val + 8 = 7 + (p.val + 1); omega)
  have eb : ∀ s : Fin 1024, rowsMid v100 (ix2 ⟨p.val, by omega⟩ s) = v100 (ix3 0 ⟨p.val + 7, by omega⟩ s) :=
    fun s => rowsMid_apply v100 _ s _ (by show p.val + 7 = 7 + p.val; omega)
  have ea : ∀ s : Fin 1024, rowsMid v100 (ix2 ⟨p.val + 2, by omega⟩ s) = v100 (ix3 0 ⟨p.val + 9, by omega⟩ s) :=
    fun s => rowsMid_apply v100 _ s _ (by show p.val + 9 = 7 + (p.val + 2); omega)
  rw [pay1_eq, shapeCast_ab_1ab_apply, core_apply, ec q, eb q, ea q, ec (prevR q), ec (nextR q), eb (nextR q),
    ea (prevR q)]

end Cert.KernelIdeal.Payload

end
-- ==== Proof.KernelPixel.lean ====
/-
  The program's result at a pixel, over the extended reals: the reciprocal-root form of the stencil at the pixel's
  seven reflected neighbours in its image.
-/
import proofs.«180297_j1125281431627_2_alg».proof.Proof.KernelValue
import proofs.«180297_j1125281431627_2_alg».proof.Proof.Stencil
import proofs.«180297_j1125281431627_2_alg».proof.Proof.Payload
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx Cert.Stencil

/-- Image `b` of the argument as a block: the unit axis dropped. -/
def blockOf (u : S16x1024x1024x1.Idx → EReal) (b : Fin 16) : Vec Ideal S1x1024x1024 .f32 :=
  fun y => u (ix4 b (⟨(y 1).val, row_lt y⟩ : Fin 1024) (⟨(y 2).val, col_lt y⟩ : Fin 1024) (0 : Fin 1))

/-- Dropping the argument's unit axis and taking image `b` is `blockOf`. -/
theorem imageOf_shapeCast (u : S16x1024x1024x1.Idx → EReal) (b : Fin 16) :
    imageOf (F := Ideal) (shapeCast S16x1024x1024 u shapeCasts_S16x1024x1024x1_S16x1024x1024) b = blockOf u b := by
  funext y
  unfold imageOf blockOf
  refine shapeCast_apply _ _ _ _ ?_
  rw [Shape.rowMajor_val_four, Shape.rowMajor_val_three]
  show (((b.val * 1024 + (y 1).val) * 1024 + (y 2).val) * 1 + 0) = ((b.val * 1024 + (y 1).val) * 1024 + (y 2).val)
  omega

/-- The result at `(b, i, j, 0)` is the block's function of image `b` at `(0, i, j)`. -/
theorem resultOf_apply (u : S16x1024x1024x1.Idx → EReal) (b : Fin 16) (i j : Fin 1024) :
    resultOf (F := Ideal) u (ix4 b i j (0 : Fin 1)) = outBlock (F := Ideal) (blockOf u b) (ix3 (0 : Fin 1) i j) := by
  unfold resultOf
  rw [broadcastInDim_apply _ _ _ (ix4 b i j (0 : Fin 1)) (ix3 b i j) (fun a => by
    match a with
    | ⟨0, _⟩ => rfl
    | ⟨1, _⟩ => rfl
    | ⟨2, _⟩ => rfl)]
  show outBlock (F := Ideal) (imageOf (F := Ideal) _ b) (ix3 (0 : Fin 1) i j) = _
  rw [imageOf_shapeCast]

/-- A pixel of a block. -/
def pix (x0 : Vec Ideal S1x1024x1024 .f32) (r q : Fin 1024) : EReal := x0 (ix3 (0 : Fin 1) r q)

/-- The block of image `b` of the argument has the image's pixels. -/
theorem pix_blockOf (u : S16x1024x1024x1.Idx → EReal) (b : Fin 16) : pix (blockOf u b) = image u b := rfl

/-- Row `r` of the first slab is row `r` of the block. -/
theorem slabFirst_apply (x0 : Vec Ideal S1x1024x1024 .f32) (r : Fin 129) (q : Fin 1024) (r' : Fin 1024)
    (h : r'.val = r.val) : slabFirst (F := Ideal) x0 (ix3 (0 : Fin 1) r q) = pix x0 r' q := by
  unfold slabFirst pix
  show x0 ((Rect.unit (s := S1x1024x1024) ![0, 0, 0] S1x129x1024.size inb_S1x1024x1024_S1x129x1024_0_0_0).idx (ix3 (0 : Fin 1) r q)) = _
  refine congrArg x0 (funext fun a => Fin.ext ?_)
  match a with
  | ⟨0, _⟩ => rfl
  | ⟨1, _⟩ => show 0 + 1 * r.val = r'.val; omega
  | ⟨2, _⟩ => show 0 + 1 * q.val = q.val; omega

/-- Row `r` of the last slab is row `895 + r` of the block. -/
theorem slabLast_apply (x0 : Vec Ideal S1x1024x1024 .f32) (r : Fin 129) (q : Fin 1024) (r' : Fin 1024)
    (h : r'.val = 895 + r.val) : slabLast (F := Ideal) x0 (ix3 (0 : Fin 1) r q) = pix x0 r' q := by
  unfold slabLast pix
  show x0 ((Rect.unit (s := S1x1024x1024) ![0, 895, 0] S1x129x1024.size inb_S1x1024x1024_S1x129x1024_0_895_0).idx (ix3 (0 : Fin 1) r q)) = _
  refine congrArg x0 (funext fun a => Fin.ext ?_)
  match a with
  | ⟨0, _⟩ => rfl
  | ⟨1, _⟩ => show 895 + 1 * r.val = r'.val; omega
  | ⟨2, _⟩ => show 0 + 1 * q.val = q.val; omega

/-- Row `r` of trip `k`'s slab is row `128 k + 120 + r` of the block. -/
theorem slabTrip_apply (x0 : Vec Ideal S1x1024x1024 .f32) (k : Fin k0_t1_loop.trips) (r : Fin 144) (q : Fin 1024) (r' : Fin 1024)
    (h : r'.val = 128 * k.val + 120 + r.val) : slabTrip (F := Ideal) x0 k (ix3 (0 : Fin 1) r q) = pix x0 r' q := by
  unfold slabTrip pix
  show x0 ((Rect.unit (s := S1x1024x1024) (k0_off1 k) S1x144x1024.size (k0_off1_inb k)).idx (ix3 (0 : Fin 1) r q)) = _
  have o0 : k0_off1 k 0 = 0 := by rw [k0_off1_eq]; rfl
  have o1 : k0_off1 k 1 = 128 * k.val + 120 := by rw [k0_off1_eq]; rfl
  have o2 : k0_off1 k 2 = 0 := by rw [k0_off1_eq]; rfl
  refine congrArg x0 (funext fun a => Fin.ext ?_)
  match a with
  | ⟨0, _⟩ => show k0_off1 k 0 + 1 * 0 = 0; omega
  | ⟨1, _⟩ => show k0_off1 k 1 + 1 * r.val = r'.val; omega
  | ⟨2, _⟩ => show k0_off1 k 2 + 1 * q.val = q.val; omega

theorem prevR_val (i : Fin 1024) : (prevR i).val = if i.val = 0 then 1 else i.val - 1 := by
  unfold prevR; split <;> rfl

theorem nextR_val (i : Fin 1024) : (nextR i).val = if i.val = 1023 then 1022 else i.val + 1 := by
  unfold nextR; split <;> rfl

theorem rsqrtForm_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    rsqrtForm a1 a2 a3 a4 a5 a6 a7 = rsqrtForm b1 b2 b3 b4 b5 b6 b7 := by
  rw [h1, h2, h3, h4, h5, h6, h7]

/-- The block's function at pixel `(i, j)`: the reciprocal-root form at the pixel's seven reflected neighbours.
    In the first band the row above row 0 is row 1; in the last the row below row 1023 is row 1022; in a loop band
    both neighbouring rows are rows of the slab. -/
theorem outBlock_apply (x0 : Vec Ideal S1x1024x1024 .f32) (i j : Fin 1024) :
    outBlock (F := Ideal) x0 (ix3 (0 : Fin 1) i j) = atPixel rsqrtForm (pix x0) i j := by
  have hi : i.val < 1024 := i.isLt
  unfold atPixel
  by_cases h0 : i.val < 128
  · have e : outBlock (F := Ideal) x0 (ix3 (0 : Fin 1) i j)
        = k0_pay2 (F := Ideal) (slabFirst x0) (ix3 (0 : Fin 1) (⟨i.val, h0⟩ : Fin 128) j) := by
      unfold outBlock
      rw [dif_pos (show ((ix3 (0 : Fin 1) i j) 1).val < 128 from h0)]
      rfl
    rw [e, Cert.KernelIdeal.Payload.pay2_apply]
    refine rsqrtForm_congr (slabFirst_apply x0 _ _ _ ?_) (slabFirst_apply x0 _ _ _ ?_) (slabFirst_apply x0 _ _ _ ?_)
      (slabFirst_apply x0 _ _ _ ?_) (slabFirst_apply x0 _ _ _ ?_) (slabFirst_apply x0 _ _ _ ?_) (slabFirst_apply x0 _ _ _ ?_)
    · rfl
    · rw [prevR_val]
    · rw [nextR_val, if_neg (by omega)]
    · rfl
    · rfl
    · rw [prevR_val]
    · rw [nextR_val, if_neg (by omega)]
  · by_cases h1 : 896 ≤ i.val
    · have e : outBlock (F := Ideal) x0 (ix3 (0 : Fin 1) i j)
          = k0_pay3 (F := Ideal) (slabLast x0) (ix3 (0 : Fin 1) (⟨i.val - 896, by omega⟩ : Fin 128) j) := by
        unfold outBlock
        rw [dif_neg (show ¬ ((ix3 (0 : Fin 1) i j) 1).val < 128 from h0),
          dif_pos (show 896 ≤ ((ix3 (0 : Fin 1) i j) 1).val from h1)]
        rfl
      rw [e, Cert.KernelIdeal.Payload.pay3_apply]
      refine rsqrtForm_congr (slabLast_apply x0 _ _ _ ?_) (slabLast_apply x0 _ _ _ ?_) (slabLast_apply x0 _ _ _ ?_)
        (slabLast_apply x0 _ _ _ ?_) (slabLast_apply x0 _ _ _ ?_) (slabLast_apply x0 _ _ _ ?_) (slabLast_apply x0 _ _ _ ?_)
      · show i.val = 895 + (i.val - 896 + 1); omega
      · rw [prevR_val, if_neg (by omega)]; show i.val - 1 = 895 + (i.val - 896); omega
      · rw [nextR_val]; show (if i.val = 1023 then 1022 else i.val + 1) = 895 + (if i.val - 896 = 127 then 127 else i.val - 896 + 2)
        split <;> split <;> omega
      · show i.val = 895 + (i.val - 896 + 1); omega
      · show i.val = 895 + (i.val - 896 + 1); omega
      · rw [prevR_val, if_neg (by omega)]; show i.val - 1 = 895 + (i.val - 896); omega
      · rw [nextR_val]; show (if i.val = 1023 then 1022 else i.val + 1) = 895 + (if i.val - 896 = 127 then 127 else i.val - 896 + 2)
        split <;> split <;> omega
    · have e : outBlock (F := Ideal) x0 (ix3 (0 : Fin 1) i j)
          = k0_pay4 (F := Ideal) (k0_pay1 (F := Ideal) (slabTrip x0 (tripOf (ix3 (0 : Fin 1) i j) h0 h1)))
              (ix3 (0 : Fin 1) (⟨i.val - 128 * (i.val / 128), by omega⟩ : Fin 128) j) := by
        unfold outBlock
        rw [dif_neg (show ¬ ((ix3 (0 : Fin 1) i j) 1).val < 128 from h0),
          dif_neg (show ¬ 896 ≤ ((ix3 (0 : Fin 1) i j) 1).val from h1)]
        rfl
      have hk : (tripOf (ix3 (0 : Fin 1) i j) h0 h1).val = i.val / 128 - 1 := rfl
      rw [e, Cert.KernelIdeal.Payload.pay1_apply]
      refine rsqrtForm_congr (slabTrip_apply x0 _ _ _ _ ?_) (slabTrip_apply x0 _ _ _ _ ?_) (slabTrip_apply x0 _ _ _ _ ?_)
        (slabTrip_apply x0 _ _ _ _ ?_) (slabTrip_apply x0 _ _ _ _ ?_) (slabTrip_apply x0 _ _ _ _ ?_) (slabTrip_apply x0 _ _ _ _ ?_)
      · show i.val = 128 * (tripOf (ix3 (0 : Fin 1) i j) h0 h1).val + 120 + (i.val - 128 * (i.val / 128) + 8); omega
      · rw [prevR_val, if_neg (by omega)]
        show i.val - 1 = 128 * (tripOf (ix3 (0 : Fin 1) i j) h0 h1).val + 120 + (i.val - 128 * (i.val / 128) + 7); omega
      · rw [nextR_val, if_neg (by omega)]
        show i.val + 1 = 128 * (tripOf (ix3 (0 : Fin 1) i j) h0 h1).val + 120 + (i.val - 128 * (i.val / 128) + 9); omega
      · show i.val = 128 * (tripOf (ix3 (0 : Fin 1) i j) h0 h1).val + 120 + (i.val - 128 * (i.val / 128) + 8); omega
      · show i.val = 128 * (tripOf (ix3 (0 : Fin 1) i j) h0 h1).val + 120 + (i.val - 128 * (i.val / 128) + 8); omega
      · rw [prevR_val, if_neg (by omega)]
        show i.val - 1 = 128 * (tripOf (ix3 (0 : Fin 1) i j) h0 h1).val + 120 + (i.val - 128 * (i.val / 128) + 7); omega
      · rw [nextR_val, if_neg (by omega)]
        show i.val + 1 = 128 * (tripOf (ix3 (0 : Fin 1) i j) h0 h1).val + 120 + (i.val - 128 * (i.val / 128) + 9); omega

/-- The program's result at `(b, i, j, 0)`: the reciprocal-root form at pixel `(i, j)` of image `b` of the argument. -/
theorem result_pixel (u : S16x1024x1024x1.Idx → EReal) (b : Fin 16) (i j : Fin 1024) :
    resultOf (F := Ideal) u (ix4 b i j (0 : Fin 1)) = atPixel rsqrtForm (image u b) i j := by
  rw [resultOf_apply, outBlock_apply, pix_blockOf]

end Cert.KernelIdeal.Body

end
-- ==== Proof.LibTypedRef.lean ====
/-
  Typed buffer references: the transport between a value's type and its buffer's declared type.

  An operation of an outlined function reads and writes its buffers through a typed reference, which carries a proof
  that the buffer's declared type is the value's type and moves contents along it. The transport there and back is
  the identity, and a transported value equals any value it is heterogeneously equal to: both by substituting the
  type equation, with nothing computed.
-/
import Idealize.ShloMosaic.Lib.StableHlo

noncomputable section

namespace Idealize.ShloMosaic.StableHlo.TRef

variable {sig : RefSig} {Val : EltTy → Type} {T : BufTy}

/-- Contents moved to the buffer's declared type and back are the contents. -/
theorem ofBuf_toBuf (x : TRef sig T) (w : T.Contents Val) : x.ofBuf (x.toBuf w) = w := by
  obtain ⟨r, rfl, _, _⟩ := x
  rfl

/-- Buffer contents read at the value's type are any value they are heterogeneously equal to. -/
theorem ofBuf_eq_of_heq (x : TRef sig T) (v : x.ref.ty.Contents Val) (w : T.Contents Val) (h : HEq v w) :
    x.ofBuf v = w := by
  obtain ⟨r, rfl, _, _⟩ := x
  exact eq_of_heq h

/-- A value written at the buffer's declared type is any buffer contents it is heterogeneously equal to. -/
theorem toBuf_eq_of_heq (x : TRef sig T) (w : T.Contents Val) (v : x.ref.ty.Contents Val) (h : HEq w v) :
    x.toBuf w = v := by
  obtain ⟨r, rfl, _, _⟩ := x
  exact eq_of_heq h

end Idealize.ShloMosaic.StableHlo.TRef

end
-- ==== Proof.RefRun.lean ====
/-
  The reference program's run: its @main as one straight line of host operations (the outlined reflect pad and
  its two reversals written out at the call site over the call's buffers), and what the result buffer holds
  when the line has run: the operations' composed term of the argument's launch contents.

  The line is read in two parts. The first seventeen operations build the padded array
  [16, 1026, 1026, 1] from the argument (one reflected pixel on each side of axes 1 and 2: a slice, a reversal
  and a concatenation per side); the remaining forty-three read seven shifted windows of the padded array,
  take six differences, three roots of sums of squares plus a constant, four quotients, and combine them.
-/
import proofs.«180297_j1125281431627_2_alg».proof.Proof.Gen.ReferenceIdeal
import proofs.«180297_j1125281431627_2_alg».proof.Proof.LibTypedRef
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations that build the padded array: the pad amount (an integer constant the pad does not read), then
    per side of axis 1 and of axis 2 a one-pixel slice, its reversal and the concatenation. -/
abbrev padOps : List (HloOp τ sig (Elt F)) :=
  [ nullary main_c (constantI S_ 32 0#32),
    TRef.unary (.of main_arg0 : TRef sig ⟨S16x1024x1024x1, .f32⟩) main_call0.v0 (extractStridedSlice S16x1x1024x1 ![0, 0, 0, 0] · slices_S16x1024x1024x1_S16x1x1024x1_0_0_0_0),
    TRef.unary (.of main_arg0 : TRef sig ⟨S16x1024x1024x1, .f32⟩) main_call0.v1 (extractStridedSlice S16x1x1024x1 ![0, 1, 0, 0] · slices_S16x1024x1024x1_S16x1x1024x1_0_1_0_0),
    TRef.unary main_call0.v1 main_call0.call0.v0 (Host.reverse [1]),
    TRef.binary main_call0.call0.v0 (.of main_arg0 : TRef sig ⟨S16x1024x1024x1, .f32⟩) main_call0.v3 (fun a b => concatenate S16x1025x1024x1 1 [⟨S16x1x1024x1, a⟩, ⟨S16x1024x1024x1, b⟩] concatenates_S16x1x1024x1_S16x1024x1024x1_S16x1025x1024x1_d1),
    TRef.unary main_call0.v3 main_call0.v4 (extractStridedSlice S16x1x1024x1 ![0, 1024, 0, 0] · slices_S16x1025x1024x1_S16x1x1024x1_0_1024_0_0),
    TRef.unary main_call0.v3 main_call0.v5 (extractStridedSlice S16x1x1024x1 ![0, 1023, 0, 0] · slices_S16x1025x1024x1_S16x1x1024x1_0_1023_0_0),
    TRef.unary main_call0.v5 main_call0.call1.v0 (Host.reverse [1]),
    TRef.binary main_call0.v3 main_call0.call1.v0 main_call0.v7 (fun a b => concatenate S16x1026x1024x1 1 [⟨S16x1025x1024x1, a⟩, ⟨S16x1x1024x1, b⟩] concatenates_S16x1025x1024x1_S16x1x1024x1_S16x1026x1024x1_d1),
    TRef.unary main_call0.v7 main_call0.v8 (extractStridedSlice S16x1026x1x1 ![0, 0, 0, 0] · slices_S16x1026x1024x1_S16x1026x1x1_0_0_0_0),
    TRef.unary main_call0.v7 main_call0.v9 (extractStridedSlice S16x1026x1x1 ![0, 0, 1, 0] · slices_S16x1026x1024x1_S16x1026x1x1_0_0_1_0),
    TRef.unary main_call0.v9 main_call0.call2.v0 (Host.reverse [2]),
    TRef.binary main_call0.call2.v0 main_call0.v7 main_call0.v11 (fun a b => concatenate S16x1026x1025x1 2 [⟨S16x1026x1x1, a⟩, ⟨S16x1026x1024x1, b⟩] concatenates_S16x1026x1x1_S16x1026x1024x1_S16x1026x1025x1_d2),
    TRef.unary main_call0.v11 main_call0.v12 (extractStridedSlice S16x1026x1x1 ![0, 0, 1024, 0] · slices_S16x1026x1025x1_S16x1026x1x1_0_0_1024_0),
    TRef.unary main_call0.v11 main_call0.v13 (extractStridedSlice S16x1026x1x1 ![0, 0, 1023, 0] · slices_S16x1026x1025x1_S16x1026x1x1_0_0_1023_0),
    TRef.unary main_call0.v13 main_call0.call3.v0 (Host.reverse [2]),
    TRef.binary main_call0.v11 main_call0.call3.v0 main_call0.v15 (fun a b => concatenate S16x1026x1026x1 2 [⟨S16x1026x1025x1, a⟩, ⟨S16x1026x1x1, b⟩] concatenates_S16x1026x1025x1_S16x1026x1x1_S16x1026x1026x1_d2) ]

/-- The operations after the pad: the seven windows, the differences, the roots and the quotients. -/
abbrev mainOps : List (HloOp τ sig (Elt F)) :=
  [ unary main_v0 main_v1 ((extractStridedSlice S16x1024x1024x1 ![0, 1, 1, 0] · slices_S16x1026x1026x1_S16x1024x1024x1_0_1_1_0) : (⟨S16x1026x1026x1, .f32⟩ : BufTy).Contents (Elt F) → (⟨S16x1024x1024x1, .f32⟩ : BufTy).Contents (Elt F)),
    unary main_v0 main_v2 ((extractStridedSlice S16x1024x1024x1 ![0, 2, 1, 0] · slices_S16x1026x1026x1_S16x1024x1024x1_0_2_1_0) : (⟨S16x1026x1026x1, .f32⟩ : BufTy).Contents (Elt F) → (⟨S16x1024x1024x1, .f32⟩ : BufTy).Contents (Elt F)),
    binary main_v2 main_v1 main_v3 (subf : (⟨S16x1024x1024x1, .f32⟩ : BufTy).Contents (Elt F) → (⟨S16x1024x1024x1, .f32⟩ : BufTy).Contents (Elt F) → (⟨S16x1024x1024x1, .f32⟩ : BufTy).Contents (Elt F)),
    unary main_v0 main_v4 ((extractStridedSlice S16x1024x1024x1 ![0, 0, 1, 0] · slices_S16x1026x1026x1_S16x1024x1024x1_0_0_1_0) : (⟨S16x1026x1026x1, .f32⟩ : BufTy).Contents (Elt F) → (⟨S16x1024x1024x1, .f32⟩ : BufTy).Contents (Elt F)),
    binary main_v1 main_v4 main_v5 (subf : (⟨S16x1024x1024x1, .f32⟩ : BufTy).Contents (Elt F) → (⟨S16x1024x1024x1, .f32⟩ : BufTy).Contents (Elt F) → (⟨S16x1024x1024x1, .f32⟩ : BufTy).Contents (Elt F)),
    unary main_v0 main_v6 ((extractStridedSlice S16x1024x1024x1 ![0, 1, 2, 0] · slices_S16x1026x1026x1_S16x1024x1024x1_0_1_2_0) : (⟨S16x1026x1026x1, .f32⟩ : BufTy).Contents (Elt F) → (⟨S16x1024x1024x1, .f32⟩ : BufTy).Contents (Elt F)),
    binary main_v6 main_v1 main_v7 (subf : (⟨S16x1024x1024x1, .f32⟩ : BufTy).Contents (Elt F) → (⟨S16x1024x1024x1, .f32⟩ : BufTy).Contents (Elt F) → (⟨S16x1024x1024x1, .f32⟩ : BufTy).Contents (Elt F)),
    unary main_v0 main_v8 ((extractStridedSlice S16x1024x1024x1 ![0, 1, 0, 0] · slices_S16x1026x1026x1_S16x1024x1024x1_0_1_0_0) : (⟨S16x1026x1026x1, .f32⟩ : BufTy).Contents (Elt F) → (⟨S16x1024x1024x1, .f32⟩ : BufTy).Contents (Elt F)),
    binary main_v1 main_v8 main_v9 (subf : (⟨S16x1024x1024x1, .f32⟩ : BufTy).Contents (Elt F) → (⟨S16x1024x1024x1, .f32⟩ : BufTy).Contents (Elt F) → (⟨S16x1024x1024x1, .f32⟩ : BufTy).Contents (Elt F)),
    unary main_v0 main_v10 ((extractStridedSlice S16x1024x1024x1 ![0, 0, 2, 0] · slices_S16x1026x1026x1_S16x1024x1024x1_0_0_2_0) : (⟨S16x1026x1026x1, .f32⟩ : BufTy).Contents (Elt F) → (⟨S16x1024x1024x1, .f32⟩ : BufTy).Contents (Elt F)),
    unary main_v0 main_v11 ((extractStridedSlice S16x1024x1024x1 ![0, 0, 1, 0] · slices_S16x1026x1026x1_S16x1024x1024x1_0_0_1_0) : (⟨S16x1026x1026x1, .f32⟩ : BufTy).Contents (Elt F) → (⟨S16x1024x1024x1, .f32⟩ : BufTy).Contents (Elt F)),
    binary main_v10 main_v11 main_v12 (subf : (⟨S16x1024x1024x1, .f32⟩ : BufTy).Contents (Elt F) → (⟨S16x1024x1024x1, .f32⟩ : BufTy).Contents (Elt F) → (⟨S16x1024x1024x1, .f32⟩ : BufTy).Contents (Elt F)),
    unary main_v0 main_v13 ((extractStridedSlice S16x1024x1024x1 ![0, 2, 0, 0] · slices_S16x1026x1026x1_S16x1024x1024x1_0_2_0_0) : (⟨S16x1026x1026x1, .f32⟩ : BufTy).Contents (Elt F) → (⟨S16x1024x1024x1, .f32⟩ : BufTy).Contents (Elt F)),
    unary main_v0 main_v14 ((extractStridedSlice S16x1024x1024x1 ![0, 1, 0, 0] · slices_S16x1026x1026x1_S16x1024x1024x1_0_1_0_0) : (⟨S16x1026x1026x1, .f32⟩ : BufTy).Contents (Elt F) → (⟨S16x1024x1024x1, .f32⟩ : BufTy).Contents (Elt F)),
    binary main_v13 main_v14 main_v15 (subf : (⟨S16x1024x1024x1, .f32⟩ : BufTy).Contents (Elt F) → (⟨S16x1024x1024x1, .f32⟩ : BufTy).Contents (Elt F) → (⟨S16x1024x1024x1, .f32⟩ : BufTy).Contents (Elt F)),
    binary main_v3 main_v3 main_v16 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v7 main_v7 main_v17 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v16 main_v17 main_v18 (addf : (⟨S16x1024x1024x1, .f32⟩ : BufTy).Contents (Elt F) → (⟨S16x1024x1024x1, .f32⟩ : BufTy).Contents (Elt F) → (⟨S16x1024x1024x1, .f32⟩ : BufTy).Contents (Elt F)),
    nullary main_cst (constant S_ .f32 0x24E69595#32),
    unary main_cst main_v19 (broadcastInDim S16x1024x1024x1 ![] bcast_S_S16x1024x1024x1 : (⟨S_, .f32⟩ : BufTy).Contents (Elt F) → (⟨S16x1024x1024x1, .f32⟩ : BufTy).Contents (Elt F)),
    binary main_v18 main_v19 main_v20 (addf : (⟨S16x1024x1024x1, .f32⟩ : BufTy).Contents (Elt F) → (⟨S16x1024x1024x1, .f32⟩ : BufTy).Contents (Elt F) → (⟨S16x1024x1024x1, .f32⟩ : BufTy).Contents (Elt F)),
    unary main_v20 main_v21 (Host.sqrt : (⟨S16x1024x1024x1, .f32⟩ : BufTy).Contents (Elt F) → (⟨S16x1024x1024x1, .f32⟩ : BufTy).Contents (Elt F)),
    binary main_v5 main_v5 main_v22 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v12 main_v12 main_v23 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v22 main_v23 main_v24 (addf : (⟨S16x1024x1024x1, .f32⟩ : BufTy).Contents (Elt F) → (⟨S16x1024x1024x1, .f32⟩ : BufTy).Contents (Elt F) → (⟨S16x1024x1024x1, .f32⟩ : BufTy).Contents (Elt F)),
    nullary main_cst_0 (constant S_ .f32 0x24E69595#32),
    unary main_cst_0 main_v25 (broadcastInDim S16x1024x1024x1 ![] bcast_S_S16x1024x1024x1 : (⟨S_, .f32⟩ : BufTy).Contents (Elt F) → (⟨S16x1024x1024x1, .f32⟩ : BufTy).Contents (Elt F)),
    binary main_v24 main_v25 main_v26 (addf : (⟨S16x1024x1024x1, .f32⟩ : BufTy).Contents (Elt F) → (⟨S16x1024x1024x1, .f32⟩ : BufTy).Contents (Elt F) → (⟨S16x1024x1024x1, .f32⟩ : BufTy).Contents (Elt F)),
    unary main_v26 main_v27 (Host.sqrt : (⟨S16x1024x1024x1, .f32⟩ : BufTy).Contents (Elt F) → (⟨S16x1024x1024x1, .f32⟩ : BufTy).Contents (Elt F)),
    binary main_v15 main_v15 main_v28 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v9 main_v9 main_v29 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v28 main_v29 main_v30 (addf : (⟨S16x1024x1024x1, .f32⟩ : BufTy).Contents (Elt F) → (⟨S16x1024x1024x1, .f32⟩ : BufTy).Contents (Elt F) → (⟨S16x1024x1024x1, .f32⟩ : BufTy).Contents (Elt F)),
    nullary main_cst_1 (constant S_ .f32 0x24E69595#32),
    unary main_cst_1 main_v31 (broadcastInDim S16x1024x1024x1 ![] bcast_S_S16x1024x1024x1 : (⟨S_, .f32⟩ : BufTy).Contents (Elt F) → (⟨S16x1024x1024x1, .f32⟩ : BufTy).Contents (Elt F)),
    binary main_v30 main_v31 main_v32 (addf : (⟨S16x1024x1024x1, .f32⟩ : BufTy).Contents (Elt F) → (⟨S16x1024x1024x1, .f32⟩ : BufTy).Contents (Elt F) → (⟨S16x1024x1024x1, .f32⟩ : BufTy).Contents (Elt F)),
    unary main_v32 main_v33 (Host.sqrt : (⟨S16x1024x1024x1, .f32⟩ : BufTy).Contents (Elt F) → (⟨S16x1024x1024x1, .f32⟩ : BufTy).Contents (Elt F)),
    binary main_v3 main_v21 main_v34 (Host.divf : (⟨S16x1024x1024x1, .f32⟩ : BufTy).Contents (Elt F) → (⟨S16x1024x1024x1, .f32⟩ : BufTy).Contents (Elt F) → (⟨S16x1024x1024x1, .f32⟩ : BufTy).Contents (Elt F)),
    binary main_v5 main_v27 main_v35 (Host.divf : (⟨S16x1024x1024x1, .f32⟩ : BufTy).Contents (Elt F) → (⟨S16x1024x1024x1, .f32⟩ : BufTy).Contents (Elt F) → (⟨S16x1024x1024x1, .f32⟩ : BufTy).Contents (Elt F)),
    binary main_v34 main_v35 main_v36 (subf : (⟨S16x1024x1024x1, .f32⟩ : BufTy).Contents (Elt F) → (⟨S16x1024x1024x1, .f32⟩ : BufTy).Contents (Elt F) → (⟨S16x1024x1024x1, .f32⟩ : BufTy).Contents (Elt F)),
    binary main_v7 main_v21 main_v37 (Host.divf : (⟨S16x1024x1024x1, .f32⟩ : BufTy).Contents (Elt F) → (⟨S16x1024x1024x1, .f32⟩ : BufTy).Contents (Elt F) → (⟨S16x1024x1024x1, .f32⟩ : BufTy).Contents (Elt F)),
    binary main_v36 main_v37 main_v38 (addf : (⟨S16x1024x1024x1, .f32⟩ : BufTy).Contents (Elt F) → (⟨S16x1024x1024x1, .f32⟩ : BufTy).Contents (Elt F) → (⟨S16x1024x1024x1, .f32⟩ : BufTy).Contents (Elt F)),
    binary main_v9 main_v33 main_v39 (Host.divf : (⟨S16x1024x1024x1, .f32⟩ : BufTy).Contents (Elt F) → (⟨S16x1024x1024x1, .f32⟩ : BufTy).Contents (Elt F) → (⟨S16x1024x1024x1, .f32⟩ : BufTy).Contents (Elt F)),
    binary main_v38 main_v39 main_v40 (subf : (⟨S16x1024x1024x1, .f32⟩ : BufTy).Contents (Elt F) → (⟨S16x1024x1024x1, .f32⟩ : BufTy).Contents (Elt F) → (⟨S16x1024x1024x1, .f32⟩ : BufTy).Contents (Elt F)) ]

/-- @main's sixty operations, in order. -/
abbrev ops : List (HloOp τ sig (Elt F)) :=
  [ nullary main_c (constantI S_ 32 0#32),
    TRef.unary (.of main_arg0 : TRef sig ⟨S16x1024x1024x1, .f32⟩) main_call0.v0 (extractStridedSlice S16x1x1024x1 ![0, 0, 0, 0] · slices_S16x1024x1024x1_S16x1x1024x1_0_0_0_0),
    TRef.unary (.of main_arg0 : TRef sig ⟨S16x1024x1024x1, .f32⟩) main_call0.v1 (extractStridedSlice S16x1x1024x1 ![0, 1, 0, 0] · slices_S16x1024x1024x1_S16x1x1024x1_0_1_0_0),
    TRef.unary main_call0.v1 main_call0.call0.v0 (Host.reverse [1]),
    TRef.binary main_call0.call0.v0 (.of main_arg0 : TRef sig ⟨S16x1024x1024x1, .f32⟩) main_call0.v3 (fun a b => concatenate S16x1025x1024x1 1 [⟨S16x1x1024x1, a⟩, ⟨S16x1024x1024x1, b⟩] concatenates_S16x1x1024x1_S16x1024x1024x1_S16x1025x1024x1_d1),
    TRef.unary main_call0.v3 main_call0.v4 (extractStridedSlice S16x1x1024x1 ![0, 1024, 0, 0] · slices_S16x1025x1024x1_S16x1x1024x1_0_1024_0_0),
    TRef.unary main_call0.v3 main_call0.v5 (extractStridedSlice S16x1x1024x1 ![0, 1023, 0, 0] · slices_S16x1025x1024x1_S16x1x1024x1_0_1023_0_0),
    TRef.unary main_call0.v5 main_call0.call1.v0 (Host.reverse [1]),
    TRef.binary main_call0.v3 main_call0.call1.v0 main_call0.v7 (fun a b => concatenate S16x1026x1024x1 1 [⟨S16x1025x1024x1, a⟩, ⟨S16x1x1024x1, b⟩] concatenates_S16x1025x1024x1_S16x1x1024x1_S16x1026x1024x1_d1),
    TRef.unary main_call0.v7 main_call0.v8 (extractStridedSlice S16x1026x1x1 ![0, 0, 0, 0] · slices_S16x1026x1024x1_S16x1026x1x1_0_0_0_0),
    TRef.unary main_call0.v7 main_call0.v9 (extractStridedSlice S16x1026x1x1 ![0, 0, 1, 0] · slices_S16x1026x1024x1_S16x1026x1x1_0_0_1_0),
    TRef.unary main_call0.v9 main_call0.call2.v0 (Host.reverse [2]),
    TRef.binary main_call0.call2.v0 main_call0.v7 main_call0.v11 (fun a b => concatenate S16x1026x1025x1 2 [⟨S16x1026x1x1, a⟩, ⟨S16x1026x1024x1, b⟩] concatenates_S16x1026x1x1_S16x1026x1024x1_S16x1026x1025x1_d2),
    TRef.unary main_call0.v11 main_call0.v12 (extractStridedSlice S16x1026x1x1 ![0, 0, 1024, 0] · slices_S16x1026x1025x1_S16x1026x1x1_0_0_1024_0),
    TRef.unary main_call0.v11 main_call0.v13 (extractStridedSlice S16x1026x1x1 ![0, 0, 1023, 0] · slices_S16x1026x1025x1_S16x1026x1x1_0_0_1023_0),
    TRef.unary main_call0.v13 main_call0.call3.v0 (Host.reverse [2]),
    TRef.binary main_call0.v11 main_call0.call3.v0 main_call0.v15 (fun a b => concatenate S16x1026x1026x1 2 [⟨S16x1026x1025x1, a⟩, ⟨S16x1026x1x1, b⟩] concatenates_S16x1026x1025x1_S16x1026x1x1_S16x1026x1026x1_d2),
    unary main_v0 main_v1 ((extractStridedSlice S16x1024x1024x1 ![0, 1, 1, 0] · slices_S16x1026x1026x1_S16x1024x1024x1_0_1_1_0) : (⟨S16x1026x1026x1, .f32⟩ : BufTy).Contents (Elt F) → (⟨S16x1024x1024x1, .f32⟩ : BufTy).Contents (Elt F)),
    unary main_v0 main_v2 ((extractStridedSlice S16x1024x1024x1 ![0, 2, 1, 0] · slices_S16x1026x1026x1_S16x1024x1024x1_0_2_1_0) : (⟨S16x1026x1026x1, .f32⟩ : BufTy).Contents (Elt F) → (⟨S16x1024x1024x1, .f32⟩ : BufTy).Contents (Elt F)),
    binary main_v2 main_v1 main_v3 (subf : (⟨S16x1024x1024x1, .f32⟩ : BufTy).Contents (Elt F) → (⟨S16x1024x1024x1, .f32⟩ : BufTy).Contents (Elt F) → (⟨S16x1024x1024x1, .f32⟩ : BufTy).Contents (Elt F)),
    unary main_v0 main_v4 ((extractStridedSlice S16x1024x1024x1 ![0, 0, 1, 0] · slices_S16x1026x1026x1_S16x1024x1024x1_0_0_1_0) : (⟨S16x1026x1026x1, .f32⟩ : BufTy).Contents (Elt F) → (⟨S16x1024x1024x1, .f32⟩ : BufTy).Contents (Elt F)),
    binary main_v1 main_v4 main_v5 (subf : (⟨S16x1024x1024x1, .f32⟩ : BufTy).Contents (Elt F) → (⟨S16x1024x1024x1, .f32⟩ : BufTy).Contents (Elt F) → (⟨S16x1024x1024x1, .f32⟩ : BufTy).Contents (Elt F)),
    unary main_v0 main_v6 ((extractStridedSlice S16x1024x1024x1 ![0, 1, 2, 0] · slices_S16x1026x1026x1_S16x1024x1024x1_0_1_2_0) : (⟨S16x1026x1026x1, .f32⟩ : BufTy).Contents (Elt F) → (⟨S16x1024x1024x1, .f32⟩ : BufTy).Contents (Elt F)),
    binary main_v6 main_v1 main_v7 (subf : (⟨S16x1024x1024x1, .f32⟩ : BufTy).Contents (Elt F) → (⟨S16x1024x1024x1, .f32⟩ : BufTy).Contents (Elt F) → (⟨S16x1024x1024x1, .f32⟩ : BufTy).Contents (Elt F)),
    unary main_v0 main_v8 ((extractStridedSlice S16x1024x1024x1 ![0, 1, 0, 0] · slices_S16x1026x1026x1_S16x1024x1024x1_0_1_0_0) : (⟨S16x1026x1026x1, .f32⟩ : BufTy).Contents (Elt F) → (⟨S16x1024x1024x1, .f32⟩ : BufTy).Contents (Elt F)),
    binary main_v1 main_v8 main_v9 (subf : (⟨S16x1024x1024x1, .f32⟩ : BufTy).Contents (Elt F) → (⟨S16x1024x1024x1, .f32⟩ : BufTy).Contents (Elt F) → (⟨S16x1024x1024x1, .f32⟩ : BufTy).Contents (Elt F)),
    unary main_v0 main_v10 ((extractStridedSlice S16x1024x1024x1 ![0, 0, 2, 0] · slices_S16x1026x1026x1_S16x1024x1024x1_0_0_2_0) : (⟨S16x1026x1026x1, .f32⟩ : BufTy).Contents (Elt F) → (⟨S16x1024x1024x1, .f32⟩ : BufTy).Contents (Elt F)),
    unary main_v0 main_v11 ((extractStridedSlice S16x1024x1024x1 ![0, 0, 1, 0] · slices_S16x1026x1026x1_S16x1024x1024x1_0_0_1_0) : (⟨S16x1026x1026x1, .f32⟩ : BufTy).Contents (Elt F) → (⟨S16x1024x1024x1, .f32⟩ : BufTy).Contents (Elt F)),
    binary main_v10 main_v11 main_v12 (subf : (⟨S16x1024x1024x1, .f32⟩ : BufTy).Contents (Elt F) → (⟨S16x1024x1024x1, .f32⟩ : BufTy).Contents (Elt F) → (⟨S16x1024x1024x1, .f32⟩ : BufTy).Contents (Elt F)),
    unary main_v0 main_v13 ((extractStridedSlice S16x1024x1024x1 ![0, 2, 0, 0] · slices_S16x1026x1026x1_S16x1024x1024x1_0_2_0_0) : (⟨S16x1026x1026x1, .f32⟩ : BufTy).Contents (Elt F) → (⟨S16x1024x1024x1, .f32⟩ : BufTy).Contents (Elt F)),
    unary main_v0 main_v14 ((extractStridedSlice S16x1024x1024x1 ![0, 1, 0, 0] · slices_S16x1026x1026x1_S16x1024x1024x1_0_1_0_0) : (⟨S16x1026x1026x1, .f32⟩ : BufTy).Contents (Elt F) → (⟨S16x1024x1024x1, .f32⟩ : BufTy).Contents (Elt F)),
    binary main_v13 main_v14 main_v15 (subf : (⟨S16x1024x1024x1, .f32⟩ : BufTy).Contents (Elt F) → (⟨S16x1024x1024x1, .f32⟩ : BufTy).Contents (Elt F) → (⟨S16x1024x1024x1, .f32⟩ : BufTy).Contents (Elt F)),
    binary main_v3 main_v3 main_v16 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v7 main_v7 main_v17 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v16 main_v17 main_v18 (addf : (⟨S16x1024x1024x1, .f32⟩ : BufTy).Contents (Elt F) → (⟨S16x1024x1024x1, .f32⟩ : BufTy).Contents (Elt F) → (⟨S16x1024x1024x1, .f32⟩ : BufTy).Contents (Elt F)),
    nullary main_cst (constant S_ .f32 0x24E69595#32),
    unary main_cst main_v19 (broadcastInDim S16x1024x1024x1 ![] bcast_S_S16x1024x1024x1 : (⟨S_, .f32⟩ : BufTy).Contents (Elt F) → (⟨S16x1024x1024x1, .f32⟩ : BufTy).Contents (Elt F)),
    binary main_v18 main_v19 main_v20 (addf : (⟨S16x1024x1024x1, .f32⟩ : BufTy).Contents (Elt F) → (⟨S16x1024x1024x1, .f32⟩ : BufTy).Contents (Elt F) → (⟨S16x1024x1024x1, .f32⟩ : BufTy).Contents (Elt F)),
    unary main_v20 main_v21 (Host.sqrt : (⟨S16x1024x1024x1, .f32⟩ : BufTy).Contents (Elt F) → (⟨S16x1024x1024x1, .f32⟩ : BufTy).Contents (Elt F)),
    binary main_v5 main_v5 main_v22 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v12 main_v12 main_v23 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v22 main_v23 main_v24 (addf : (⟨S16x1024x1024x1, .f32⟩ : BufTy).Contents (Elt F) → (⟨S16x1024x1024x1, .f32⟩ : BufTy).Contents (Elt F) → (⟨S16x1024x1024x1, .f32⟩ : BufTy).Contents (Elt F)),
    nullary main_cst_0 (constant S_ .f32 0x24E69595#32),
    unary main_cst_0 main_v25 (broadcastInDim S16x1024x1024x1 ![] bcast_S_S16x1024x1024x1 : (⟨S_, .f32⟩ : BufTy).Contents (Elt F) → (⟨S16x1024x1024x1, .f32⟩ : BufTy).Contents (Elt F)),
    binary main_v24 main_v25 main_v26 (addf : (⟨S16x1024x1024x1, .f32⟩ : BufTy).Contents (Elt F) → (⟨S16x1024x1024x1, .f32⟩ : BufTy).Contents (Elt F) → (⟨S16x1024x1024x1, .f32⟩ : BufTy).Contents (Elt F)),
    unary main_v26 main_v27 (Host.sqrt : (⟨S16x1024x1024x1, .f32⟩ : BufTy).Contents (Elt F) → (⟨S16x1024x1024x1, .f32⟩ : BufTy).Contents (Elt F)),
    binary main_v15 main_v15 main_v28 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v9 main_v9 main_v29 (mulf : (⟨S16x1024x1024x1, .f32⟩ : BufTy).Contents (Elt F) → (⟨S16x1024x1024x1, .f32⟩ : BufTy).Contents (Elt F) → (⟨S16x1024x1024x1, .f32⟩ : BufTy).Contents (Elt F)),
    binary main_v28 main_v29 main_v30 (addf : (⟨S16x1024x1024x1, .f32⟩ : BufTy).Contents (Elt F) → (⟨S16x1024x1024x1, .f32⟩ : BufTy).Contents (Elt F) → (⟨S16x1024x1024x1, .f32⟩ : BufTy).Contents (Elt F)),
    nullary main_cst_1 (constant S_ .f32 0x24E69595#32),
    unary main_cst_1 main_v31 (broadcastInDim S16x1024x1024x1 ![] bcast_S_S16x1024x1024x1 : (⟨S_, .f32⟩ : BufTy).Contents (Elt F) → (⟨S16x1024x1024x1, .f32⟩ : BufTy).Contents (Elt F)),
    binary main_v30 main_v31 main_v32 (addf : (⟨S16x1024x1024x1, .f32⟩ : BufTy).Contents (Elt F) → (⟨S16x1024x1024x1, .f32⟩ : BufTy).Contents (Elt F) → (⟨S16x1024x1024x1, .f32⟩ : BufTy).Contents (Elt F)),
    unary main_v32 main_v33 (Host.sqrt : (⟨S16x1024x1024x1, .f32⟩ : BufTy).Contents (Elt F) → (⟨S16x1024x1024x1, .f32⟩ : BufTy).Contents (Elt F)),
    binary main_v3 main_v21 main_v34 (Host.divf : (⟨S16x1024x1024x1, .f32⟩ : BufTy).Contents (Elt F) → (⟨S16x1024x1024x1, .f32⟩ : BufTy).Contents (Elt F) → (⟨S16x1024x1024x1, .f32⟩ : BufTy).Contents (Elt F)),
    binary main_v5 main_v27 main_v35 (Host.divf : (⟨S16x1024x1024x1, .f32⟩ : BufTy).Contents (Elt F) → (⟨S16x1024x1024x1, .f32⟩ : BufTy).Contents (Elt F) → (⟨S16x1024x1024x1, .f32⟩ : BufTy).Contents (Elt F)),
    binary main_v34 main_v35 main_v36 (subf : (⟨S16x1024x1024x1, .f32⟩ : BufTy).Contents (Elt F) → (⟨S16x1024x1024x1, .f32⟩ : BufTy).Contents (Elt F) → (⟨S16x1024x1024x1, .f32⟩ : BufTy).Contents (Elt F)),
    binary main_v7 main_v21 main_v37 (Host.divf : (⟨S16x1024x1024x1, .f32⟩ : BufTy).Contents (Elt F) → (⟨S16x1024x1024x1, .f32⟩ : BufTy).Contents (Elt F) → (⟨S16x1024x1024x1, .f32⟩ : BufTy).Contents (Elt F)),
    binary main_v36 main_v37 main_v38 (addf : (⟨S16x1024x1024x1, .f32⟩ : BufTy).Contents (Elt F) → (⟨S16x1024x1024x1, .f32⟩ : BufTy).Contents (Elt F) → (⟨S16x1024x1024x1, .f32⟩ : BufTy).Contents (Elt F)),
    binary main_v9 main_v33 main_v39 (Host.divf : (⟨S16x1024x1024x1, .f32⟩ : BufTy).Contents (Elt F) → (⟨S16x1024x1024x1, .f32⟩ : BufTy).Contents (Elt F) → (⟨S16x1024x1024x1, .f32⟩ : BufTy).Contents (Elt F)),
    binary main_v38 main_v39 main_v40 (subf : (⟨S16x1024x1024x1, .f32⟩ : BufTy).Contents (Elt F) → (⟨S16x1024x1024x1, .f32⟩ : BufTy).Contents (Elt F) → (⟨S16x1024x1024x1, .f32⟩ : BufTy).Contents (Elt F)) ]

theorem ops_eq : (ops : List (HloOp τ sig (Elt F))) = padOps ++ mainOps := rfl

set_option maxRecDepth 2048 in
/-- @main is that straight line: the outlined functions unfolded at their calls, both sides are one chain of
    steps once sequencing is re-associated. -/
theorem main_eq (c : Dev nD) : main (F := F) c = seq ops := by
  simp only [main, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., binary_bufs_sub .., unary_bufs_sub .., binary_bufs_sub .., unary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub .., binary_bufs_sub .., binary_bufs_sub .., binary_bufs_sub ..⟩

/-- What the buffers hold after two lines run in order. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Every weakly fair execution of @main terminates with each buffer at the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term

The padded array in four steps, one per side: a one-pixel slice next to the edge, reversed along the padded axis
(a reversal of one pixel), concatenated in front of or behind the array. Then the stencil on the padded array. -/

/-- Row 1 of the argument put in front of it along axis 1: [16, 1025, 1024, 1]. -/
def pad3 (u : (⟨S16x1024x1024x1, .f32⟩ : BufTy).Contents (Elt F)) : (⟨S16x1025x1024x1, .f32⟩ : BufTy).Contents (Elt F) :=
  concatenate S16x1025x1024x1 1 [⟨S16x1x1024x1, Host.reverse [1] (extractStridedSlice S16x1x1024x1 ![0, 1, 0, 0] u slices_S16x1024x1024x1_S16x1x1024x1_0_1_0_0)⟩, ⟨S16x1024x1024x1, u⟩] concatenates_S16x1x1024x1_S16x1024x1024x1_S16x1025x1024x1_d1

/-- Row 1023 of that (row 1022 of the argument) put behind it along axis 1: [16, 1026, 1024, 1]. -/
def pad7 (p : (⟨S16x1025x1024x1, .f32⟩ : BufTy).Contents (Elt F)) : (⟨S16x1026x1024x1, .f32⟩ : BufTy).Contents (Elt F) :=
  concatenate S16x1026x1024x1 1 [⟨S16x1025x1024x1, p⟩, ⟨S16x1x1024x1, Host.reverse [1] (extractStridedSlice S16x1x1024x1 ![0, 1023, 0, 0] p slices_S16x1025x1024x1_S16x1x1024x1_0_1023_0_0)⟩] concatenates_S16x1025x1024x1_S16x1x1024x1_S16x1026x1024x1_d1

/-- Column 1 put in front along axis 2: [16, 1026, 1025, 1]. -/
def pad11 (p : (⟨S16x1026x1024x1, .f32⟩ : BufTy).Contents (Elt F)) : (⟨S16x1026x1025x1, .f32⟩ : BufTy).Contents (Elt F) :=
  concatenate S16x1026x1025x1 2 [⟨S16x1026x1x1, Host.reverse [2] (extractStridedSlice S16x1026x1x1 ![0, 0, 1, 0] p slices_S16x1026x1024x1_S16x1026x1x1_0_0_1_0)⟩, ⟨S16x1026x1024x1, p⟩] concatenates_S16x1026x1x1_S16x1026x1024x1_S16x1026x1025x1_d2

/-- Column 1023 of that put behind along axis 2: [16, 1026, 1026, 1]. -/
def pad15 (p : (⟨S16x1026x1025x1, .f32⟩ : BufTy).Contents (Elt F)) : (⟨S16x1026x1026x1, .f32⟩ : BufTy).Contents (Elt F) :=
  concatenate S16x1026x1026x1 2 [⟨S16x1026x1025x1, p⟩, ⟨S16x1026x1x1, Host.reverse [2] (extractStridedSlice S16x1026x1x1 ![0, 0, 1023, 0] p slices_S16x1026x1025x1_S16x1026x1x1_0_0_1023_0)⟩] concatenates_S16x1026x1025x1_S16x1026x1x1_S16x1026x1026x1_d2

/-- The argument with one reflected pixel on each side of axes 1 and 2. -/
def padded (u : (⟨S16x1024x1024x1, .f32⟩ : BufTy).Contents (Elt F)) : (⟨S16x1026x1026x1, .f32⟩ : BufTy).Contents (Elt F) :=
  pad15 (pad11 (pad7 (pad3 u)))

/-- The stencil on the padded array: with c the centre window, the six differences of shifted windows, the three
    roots of a sum of two squares and the constant, and dxf/F - dxb/G + dyf/F - dyb/H. -/
def stencil (p : (⟨S16x1026x1026x1, .f32⟩ : BufTy).Contents (Elt F)) : (⟨S16x1024x1024x1, .f32⟩ : BufTy).Contents (Elt F) :=
  let c := extractStridedSlice S16x1024x1024x1 ![0, 1, 1, 0] p slices_S16x1026x1026x1_S16x1024x1024x1_0_1_1_0
  let dxf := subf (extractStridedSlice S16x1024x1024x1 ![0, 2, 1, 0] p slices_S16x1026x1026x1_S16x1024x1024x1_0_2_1_0) c
  let dxb := subf c (extractStridedSlice S16x1024x1024x1 ![0, 0, 1, 0] p slices_S16x1026x1026x1_S16x1024x1024x1_0_0_1_0)
  let dyf := subf (extractStridedSlice S16x1024x1024x1 ![0, 1, 2, 0] p slices_S16x1026x1026x1_S16x1024x1024x1_0_1_2_0) c
  let dyb := subf c (extractStridedSlice S16x1024x1024x1 ![0, 1, 0, 0] p slices_S16x1026x1026x1_S16x1024x1024x1_0_1_0_0)
  let dsbf := subf (extractStridedSlice S16x1024x1024x1 ![0, 0, 2, 0] p slices_S16x1026x1026x1_S16x1024x1024x1_0_0_2_0) (extractStridedSlice S16x1024x1024x1 ![0, 0, 1, 0] p slices_S16x1026x1026x1_S16x1024x1024x1_0_0_1_0)
  let dslf := subf (extractStridedSlice S16x1024x1024x1 ![0, 2, 0, 0] p slices_S16x1026x1026x1_S16x1024x1024x1_0_2_0_0) (extractStridedSlice S16x1024x1024x1 ![0, 1, 0, 0] p slices_S16x1026x1026x1_S16x1024x1024x1_0_1_0_0)
  let e : (⟨S16x1024x1024x1, .f32⟩ : BufTy).Contents (Elt F) := broadcastInDim S16x1024x1024x1 ![] bcast_S_S16x1024x1024x1 (constant S_ .f32 0x24E69595#32)
  let rF := Host.sqrt (addf (addf (mulf dxf dxf) (mulf dyf dyf)) e)
  let rG := Host.sqrt (addf (addf (mulf dxb dxb) (mulf dsbf dsbf)) e)
  let rH := Host.sqrt (addf (addf (mulf dslf dslf) (mulf dyb dyb)) e)
  subf (addf (subf (Host.divf dxf rF) (Host.divf dxb rG)) (Host.divf dyf rF)) (Host.divf dyb rH)

/-- After the pad's operations the padded buffer holds the padded argument. -/
theorem pad_after (V : Valuation τ sig (Elt F)) :
    after padOps V (main_v0 : DevRef τ sig) = padded (V (main_arg0 : DevRef τ sig)) := by
  after_results
  refine TRef.toBuf_eq_of_heq _ _ _ (heq_of_eq ?_)
  rw [TRef.ofBuf_eq_of_heq _ _ (V (main_arg0 : DevRef τ sig)) HEq.rfl]
  repeat rw [TRef.ofBuf_toBuf]
  rfl

/-- The pad's operations leave the argument as it was. -/
theorem pad_after_arg0 (V : Valuation τ sig (Elt F)) :
    after padOps V (main_arg0 : DevRef τ sig) = V (main_arg0 : DevRef τ sig) := by
  after_results

/-- After the remaining operations the result buffer holds the stencil of the padded buffer. -/
theorem main_after (W : Valuation τ sig (Elt F)) :
    after mainOps W (main_v40 : DevRef τ sig) = stencil (W (main_v0 : DevRef τ sig)) := by
  after_results_simp
  rfl

/-- The remaining operations leave the argument as it was. -/
theorem main_after_arg0 (W : Valuation τ sig (Elt F)) :
    after mainOps W (main_arg0 : DevRef τ sig) = W (main_arg0 : DevRef τ sig) := by
  after_results_simp

/-- The reference's result as a function of its argument, at the extended reals. -/
def result (u : (⟨S16x1024x1024x1, .f32⟩ : BufTy).Contents (Elt Ideal)) : (⟨S16x1024x1024x1, .f32⟩ : BufTy).Contents (Elt Ideal) :=
  stencil (padded u)

theorem out_eq (V : Valuation τ sig (Elt Ideal)) :
    after ops V (main_v40 : DevRef τ sig) = result (V (main_arg0 : DevRef τ sig)) := by
  rw [ops_eq, after_append, main_after, pad_after]
  rfl

theorem arg0_eq (V : Valuation τ sig (Elt Ideal)) :
    after ops V (main_arg0 : DevRef τ sig) = V (main_arg0 : DevRef τ sig) := by
  rw [ops_eq, after_append, main_after_arg0, pad_after_arg0]

/-- On every device, from any memory with zero counters: every weakly fair execution of @main terminates with the
    result buffer at `result` of the argument's launch contents and the argument unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v40) = result (m ((c.tc : Thread nD τ).loc main_arg0))
        ∧ r.2.mem ((c.tc : Thread nD τ).loc main_arg0) = m ((c.tc : Thread nD τ).loc main_arg0)) :=
  (θ_run defs _ _).mono (fun _ h c => ⟨(h c main_v40).trans (out_eq _), (h c main_arg0).trans (arg0_eq _)⟩)
    (run_main m ρ)

end Cert.ReferenceIdeal.RefValue

end
-- ==== Proof.FiniteInputs.lean ====
/-
  From the precondition to real pixels.  The precondition says that the conjunction, over every
  entry x of the argument array, of |x| < +∞ is true.  A conjunction that is true is true at each
  entry; |x| = max x (-x) below +∞ excludes both infinities (and the junk value -∞ that stands for
  a NaN), so every entry is a real number.
-/
import proofs.«180297_j1125281431627_2_alg».proof.Defs
import proofs.«180297_j1125281431627_2_alg».proof.Proof.Gen.Pre_finite_inputs
import Idealize.ShloMosaic.Lib.ReduceAll
import Idealize.ShloMosaic.Lib.ValueIdx
import Idealize.ShloMosaic.Lib.IdealHost

noncomputable section

namespace Cert.Finite

open Idealize.ShloMosaic Idealize.SL.Sem

/-- The rank-0 shape has one index. -/
instance : Subsingleton Cert.Pre_finite_inputs.S_.Idx := ⟨fun a b => funext fun d => d.elim0⟩

/-- An array on which the finiteness predicate is all ones has a real number at every index. -/
theorem real_of_fn [hP : Cert.Pre_finite_inputs.Facts] (x : FVec Ideal Cert.Pre_finite_inputs.S16x1024x1024x1 .f32)
    (h : Cert.Pre_finite_inputs.fn (F := Ideal) x = (fun _ => 1#1)) (idx : Cert.Pre_finite_inputs.S16x1024x1024x1.Idx) :
    ∃ r : ℝ, x idx = (r : EReal) := by
  have h0 := congrFun h ValueIdx.ix0
  dsimp only [Cert.Pre_finite_inputs.fn] at h0
  have h1 := Host.reduce_andi_all _ _ _ _ _ h0 idx
  rw [ValueIdx.cmpf_apply, ValueIdx.broadcastInDim_scalar_apply, ValueIdx.constant_apply] at h1
  have htop : Ideal.ofBits .f32 0x7F800000#32 = ⊤ := by simp [Ideal.ofBits, Ideal.ieee]
  rw [htop] at h1
  have h1' : Ideal.cmp .olt (max (x idx) (-(x idx))) ⊤ = 1#1 := h1
  have h2 : max (x idx) (-(x idx)) < (⊤ : EReal) := by
    by_contra hc
    have h3 : Ideal.cmp .olt (max (x idx) (-(x idx))) ⊤ = 0#1 := by
      simp [Ideal.cmp, hc]
    rw [h3] at h1'
    exact absurd h1' (by decide)
  have hne_top : x idx ≠ ⊤ := by
    intro e; rw [e] at h2; simp at h2
  have hne_bot : x idx ≠ ⊥ := by
    intro e; rw [e] at h2; simp at h2
  exact ⟨(x idx).toReal, (EReal.coe_toReal hne_top hne_bot).symm⟩

/-- Under the kernel's precondition every entry of the argument array, on every device, is a real number. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (idx : Cert.KernelIdeal.S16x1024x1024x1.Idx) :
    ∃ r : ℝ, m ((c.tc : Thread Cert.KernelIdeal.nD Cert.KernelIdeal.τ).loc Cert.KernelIdeal.main_arg0) idx = (r : EReal) :=
  real_of_fn _ (h c) idx

end Cert.Finite

end
-- ==== Proof.RefRead.lean ====
/-
  The reference's result read at one pixel.

  The padded array at (b, a, k, 0), a and k in 0 … 1025, is the argument at (b, r(a), r(k), 0) with
  r(0) = 1, r(1025) = 1022 and r(a) = a - 1 in between: each of the four pad steps is a concatenation of the array
  with one reversed slice of extent one, and a reversal along an axis of extent one is the identity. A window of the
  padded array at offsets (oa, ok) in {0, 1, 2}² read at (b, i, j, 0) is the padded array at (b, i + oa, j + ok, 0):
  offset 1 is the pixel itself, offset 0 the neighbour before it reflected at the lower edge, offset 2 the neighbour
  after it reflected at the upper edge. The pointwise operations read through at an index, which gives the
  quotient-by-roots form of the stencil at the pixel.
-/
import proofs.«180297_j1125281431627_2_alg».proof.Proof.RefRun
import proofs.«180297_j1125281431627_2_alg».proof.Proof.Stencil
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

variable {F : FTy → Type} [FloatOps F]

/-! ## A reversal along an axis of extent one -/

/-- Reversing a [16, 1, 1024, 1] array along axis 1 changes nothing. -/
theorem reverse1_unit {α : Type} (x : S16x1x1024x1.Idx → α) : Host.reverse (s := S16x1x1024x1) [1] x = x := by
  funext j
  show x (fun a => if a ∈ ([1] : List (Fin S16x1x1024x1.rank)) then (j a).rev else j a) = x j
  congr 1
  funext a
  match a with
  | ⟨0, _⟩ => rfl
  | ⟨1, _⟩ => exact Subsingleton.elim (α := Fin 1) _ _
  | ⟨2, _⟩ => rfl
  | ⟨3, _⟩ => rfl

/-- Reversing a [16, 1026, 1, 1] array along axis 2 changes nothing. -/
theorem reverse2_unit {α : Type} (x : S16x1026x1x1.Idx → α) : Host.reverse (s := S16x1026x1x1) [2] x = x := by
  funext j
  show x (fun a => if a ∈ ([2] : List (Fin S16x1026x1x1.rank)) then (j a).rev else j a) = x j
  congr 1
  funext a
  match a with
  | ⟨0, _⟩ => rfl
  | ⟨1, _⟩ => rfl
  | ⟨2, _⟩ => exact Subsingleton.elim (α := Fin 1) _ _
  | ⟨3, _⟩ => rfl

/-! ## The four pad steps at an index -/

/-- Row 0 of the first step is row 1 of the argument. -/
theorem pad3_first (u : (⟨S16x1024x1024x1, .f32⟩ : BufTy).Contents (Elt F)) (b : Fin 16) (a : Fin 1025) (k : Fin 1024)
    (a' : Fin 1024) (ha : a.val = 0) (ha' : a'.val = 1) :
    pad3 u (ix4 b a k (0 : Fin 1)) = u (ix4 b a' k (0 : Fin 1)) := by
  unfold pad3
  refine (concatenate_pair_apply_left (t := S16x1025x1024x1) (s₁ := S16x1x1024x1) (s₂ := S16x1024x1024x1) (1 : Fin 4) _ _ _ (ix4 b a k (0 : Fin 1)) rfl (ix4 b (0 : Fin 1) k (0 : Fin 1)) ?_).trans ?_
  · intro d
    match d with
    | ⟨0, _⟩ => rfl
    | ⟨1, _⟩ => show 0 = a.val; omega
    | ⟨2, _⟩ => rfl
    | ⟨3, _⟩ => rfl
  · rw [reverse1_unit]
    refine extractStridedSlice_apply _ _ _ _ (ix4 b a' k (0 : Fin 1)) ?_
    intro d
    match d with
    | ⟨0, _⟩ => show b.val = 0 + b.val; omega
    | ⟨1, _⟩ => show a'.val = 1 + 0; omega
    | ⟨2, _⟩ => show k.val = 0 + k.val; omega
    | ⟨3, _⟩ => show 0 = 0 + 0; omega

/-- A later row of the first step is the argument's row before it. -/
theorem pad3_rest (u : (⟨S16x1024x1024x1, .f32⟩ : BufTy).Contents (Elt F)) (b : Fin 16) (a : Fin 1025) (k : Fin 1024)
    (a' : Fin 1024) (h : a'.val + 1 = a.val) :
    pad3 u (ix4 b a k (0 : Fin 1)) = u (ix4 b a' k (0 : Fin 1)) := by
  unfold pad3
  refine concatenate_pair_apply_right (t := S16x1025x1024x1) (s₁ := S16x1x1024x1) (s₂ := S16x1024x1024x1) (1 : Fin 4) _ _ _ (ix4 b a k (0 : Fin 1)) rfl rfl (ix4 b a' k (0 : Fin 1)) ?_ ?_
  · intro d
    match d with
    | ⟨0, _⟩ => exact fun _ => rfl
    | ⟨1, _⟩ => exact fun hd => absurd rfl hd
    | ⟨2, _⟩ => exact fun _ => rfl
    | ⟨3, _⟩ => exact fun _ => rfl
  · show a'.val + 1 = a.val
    exact h

/-- A row of the second step below the last is the first step's row. -/
theorem pad7_low (p : (⟨S16x1025x1024x1, .f32⟩ : BufTy).Contents (Elt F)) (b : Fin 16) (a : Fin 1026) (k : Fin 1024)
    (a' : Fin 1025) (h : a'.val = a.val) :
    pad7 p (ix4 b a k (0 : Fin 1)) = p (ix4 b a' k (0 : Fin 1)) := by
  unfold pad7
  refine concatenate_pair_apply_left (t := S16x1026x1024x1) (s₁ := S16x1025x1024x1) (s₂ := S16x1x1024x1) (1 : Fin 4) _ _ _ (ix4 b a k (0 : Fin 1)) rfl (ix4 b a' k (0 : Fin 1)) ?_
  intro d
  match d with
  | ⟨0, _⟩ => rfl
  | ⟨1, _⟩ => exact h
  | ⟨2, _⟩ => rfl
  | ⟨3, _⟩ => rfl

/-- The last row of the second step is row 1023 of the first. -/
theorem pad7_last (p : (⟨S16x1025x1024x1, .f32⟩ : BufTy).Contents (Elt F)) (b : Fin 16) (a : Fin 1026) (k : Fin 1024)
    (a' : Fin 1025) (ha : a.val = 1025) (ha' : a'.val = 1023) :
    pad7 p (ix4 b a k (0 : Fin 1)) = p (ix4 b a' k (0 : Fin 1)) := by
  unfold pad7
  refine (concatenate_pair_apply_right (t := S16x1026x1024x1) (s₁ := S16x1025x1024x1) (s₂ := S16x1x1024x1) (1 : Fin 4) _ _ _ (ix4 b a k (0 : Fin 1)) rfl rfl (ix4 b (0 : Fin 1) k (0 : Fin 1)) ?_ ?_).trans ?_
  · intro d
    match d with
    | ⟨0, _⟩ => exact fun _ => rfl
    | ⟨1, _⟩ => exact fun hd => absurd rfl hd
    | ⟨2, _⟩ => exact fun _ => rfl
    | ⟨3, _⟩ => exact fun _ => rfl
  · show 0 + 1025 = a.val
    omega
  · rw [reverse1_unit]
    refine extractStridedSlice_apply _ _ _ _ (ix4 b a' k (0 : Fin 1)) ?_
    intro d
    match d with
    | ⟨0, _⟩ => show b.val = 0 + b.val; omega
    | ⟨1, _⟩ => show a'.val = 1023 + 0; omega
    | ⟨2, _⟩ => show k.val = 0 + k.val; omega
    | ⟨3, _⟩ => show 0 = 0 + 0; omega

/-- Column 0 of the third step is column 1 of the second. -/
theorem pad11_first (p : (⟨S16x1026x1024x1, .f32⟩ : BufTy).Contents (Elt F)) (b : Fin 16) (a : Fin 1026) (k : Fin 1025)
    (k' : Fin 1024) (hk : k.val = 0) (hk' : k'.val = 1) :
    pad11 p (ix4 b a k (0 : Fin 1)) = p (ix4 b a k' (0 : Fin 1)) := by
  unfold pad11
  refine (concatenate_pair_apply_left (t := S16x1026x1025x1) (s₁ := S16x1026x1x1) (s₂ := S16x1026x1024x1) (2 : Fin 4) _ _ _ (ix4 b a k (0 : Fin 1)) rfl (ix4 b a (0 : Fin 1) (0 : Fin 1)) ?_).trans ?_
  · intro d
    match d with
    | ⟨0, _⟩ => rfl
    | ⟨1, _⟩ => rfl
    | ⟨2, _⟩ => show 0 = k.val; omega
    | ⟨3, _⟩ => rfl
  · rw [reverse2_unit]
    refine extractStridedSlice_apply _ _ _ _ (ix4 b a k' (0 : Fin 1)) ?_
    intro d
    match d with
    | ⟨0, _⟩ => show b.val = 0 + b.val; omega
    | ⟨1, _⟩ => show a.val = 0 + a.val; omega
    | ⟨2, _⟩ => show k'.val = 1 + 0; omega
    | ⟨3, _⟩ => show 0 = 0 + 0; omega

/-- A later column of the third step is the second step's column before it. -/
theorem pad11_rest (p : (⟨S16x1026x1024x1, .f32⟩ : BufTy).Contents (Elt F)) (b : Fin 16) (a : Fin 1026) (k : Fin 1025)
    (k' : Fin 1024) (h : k'.val + 1 = k.val) :
    pad11 p (ix4 b a k (0 : Fin 1)) = p (ix4 b a k' (0 : Fin 1)) := by
  unfold pad11
  refine concatenate_pair_apply_right (t := S16x1026x1025x1) (s₁ := S16x1026x1x1) (s₂ := S16x1026x1024x1) (2 : Fin 4) _ _ _ (ix4 b a k (0 : Fin 1)) rfl rfl (ix4 b a k' (0 : Fin 1)) ?_ ?_
  · intro d
    match d with
    | ⟨0, _⟩ => exact fun _ => rfl
    | ⟨1, _⟩ => exact fun _ => rfl
    | ⟨2, _⟩ => exact fun hd => absurd rfl hd
    | ⟨3, _⟩ => exact fun _ => rfl
  · show k'.val + 1 = k.val
    exact h

/-- A column of the fourth step below the last is the third step's column. -/
theorem pad15_low (p : (⟨S16x1026x1025x1, .f32⟩ : BufTy).Contents (Elt F)) (b : Fin 16) (a : Fin 1026) (k : Fin 1026)
    (k' : Fin 1025) (h : k'.val = k.val) :
    pad15 p (ix4 b a k (0 : Fin 1)) = p (ix4 b a k' (0 : Fin 1)) := by
  unfold pad15
  refine concatenate_pair_apply_left (t := S16x1026x1026x1) (s₁ := S16x1026x1025x1) (s₂ := S16x1026x1x1) (2 : Fin 4) _ _ _ (ix4 b a k (0 : Fin 1)) rfl (ix4 b a k' (0 : Fin 1)) ?_
  intro d
  match d with
  | ⟨0, _⟩ => rfl
  | ⟨1, _⟩ => rfl
  | ⟨2, _⟩ => exact h
  | ⟨3, _⟩ => rfl

/-- The last column of the fourth step is column 1023 of the third. -/
theorem pad15_last (p : (⟨S16x1026x1025x1, .f32⟩ : BufTy).Contents (Elt F)) (b : Fin 16) (a : Fin 1026) (k : Fin 1026)
    (k' : Fin 1025) (hk : k.val = 1025) (hk' : k'.val = 1023) :
    pad15 p (ix4 b a k (0 : Fin 1)) = p (ix4 b a k' (0 : Fin 1)) := by
  unfold pad15
  refine (concatenate_pair_apply_right (t := S16x1026x1026x1) (s₁ := S16x1026x1025x1) (s₂ := S16x1026x1x1) (2 : Fin 4) _ _ _ (ix4 b a k (0 : Fin 1)) rfl rfl (ix4 b a (0 : Fin 1) (0 : Fin 1)) ?_ ?_).trans ?_
  · intro d
    match d with
    | ⟨0, _⟩ => exact fun _ => rfl
    | ⟨1, _⟩ => exact fun _ => rfl
    | ⟨2, _⟩ => exact fun hd => absurd rfl hd
    | ⟨3, _⟩ => exact fun _ => rfl
  · show 0 + 1025 = k.val
    omega
  · rw [reverse2_unit]
    refine extractStridedSlice_apply _ _ _ _ (ix4 b a k' (0 : Fin 1)) ?_
    intro d
    match d with
    | ⟨0, _⟩ => show b.val = 0 + b.val; omega
    | ⟨1, _⟩ => show a.val = 0 + a.val; omega
    | ⟨2, _⟩ => show k'.val = 1023 + 0; omega
    | ⟨3, _⟩ => show 0 = 0 + 0; omega

/-! ## The padded array at an index -/

/-- Position `a` of a padded axis reads position `a'` of the axis: the reflection of `a - 1` about the two edges. -/
def Reflects (a a' : Nat) : Prop :=
  (a = 0 → a' = 1) ∧ (a = 1025 → a' = 1022) ∧ (0 < a → a < 1025 → a' + 1 = a)

/-- The padded array at (b, a, k, 0) is the argument at the reflected positions. -/
theorem padded_apply (u : (⟨S16x1024x1024x1, .f32⟩ : BufTy).Contents (Elt F)) (b : Fin 16) (a k : Fin 1026)
    (a' k' : Fin 1024) (ha : Reflects a.val a'.val) (hk : Reflects k.val k'.val) :
    padded u (ix4 b a k (0 : Fin 1)) = u (ix4 b a' k' (0 : Fin 1)) := by
  obtain ⟨ha0, ha1, ha2⟩ := ha
  obtain ⟨hk0, hk1, hk2⟩ := hk
  have hab := a.isLt
  have hkb := k.isLt
  unfold padded
  -- axis 2: the fourth step, then the third
  have e2 : pad15 (pad11 (pad7 (pad3 u))) (ix4 b a k (0 : Fin 1)) = pad7 (pad3 u) (ix4 b a k' (0 : Fin 1)) := by
    by_cases c1 : k.val = 1025
    · refine (pad15_last _ b a k ⟨1023, by omega⟩ c1 rfl).trans ?_
      exact pad11_rest _ b a ⟨1023, by omega⟩ k' (by show k'.val + 1 = 1023; have := hk1 c1; omega)
    · refine (pad15_low _ b a k ⟨k.val, by omega⟩ rfl).trans ?_
      by_cases c0 : k.val = 0
      · exact pad11_first _ b a ⟨k.val, by omega⟩ k' c0 (hk0 c0)
      · exact pad11_rest _ b a ⟨k.val, by omega⟩ k' (by show k'.val + 1 = k.val; exact hk2 (by omega) (by omega))
  -- axis 1: the second step, then the first
  have e1 : pad7 (pad3 u) (ix4 b a k' (0 : Fin 1)) = u (ix4 b a' k' (0 : Fin 1)) := by
    by_cases c1 : a.val = 1025
    · refine (pad7_last _ b a k' ⟨1023, by omega⟩ c1 rfl).trans ?_
      exact pad3_rest u b ⟨1023, by omega⟩ k' a' (by show a'.val + 1 = 1023; have := ha1 c1; omega)
    · refine (pad7_low _ b a k' ⟨a.val, by omega⟩ rfl).trans ?_
      by_cases c0 : a.val = 0
      · exact pad3_first u b ⟨a.val, by omega⟩ k' a' c0 (ha0 c0)
      · exact pad3_rest u b ⟨a.val, by omega⟩ k' a' (by show a'.val + 1 = a.val; exact ha2 (by omega) (by omega))
  exact e2.trans e1

/-! ## The windows -/

/-- A window of the padded array at offsets (oa, ok), each at most 2, read at (b, i, j, 0). -/
theorem window_apply (u : (⟨S16x1024x1024x1, .f32⟩ : BufTy).Contents (Elt F)) (oa ok : Nat) (hoa : oa ≤ 2) (hok : ok ≤ 2)
    (h : S16x1026x1026x1.Slices ![0, oa, ok, 0] S16x1024x1024x1) (b : Fin 16) (i j i' j' : Fin 1024)
    (hi : Reflects (i.val + oa) i'.val) (hj : Reflects (j.val + ok) j'.val) :
    extractStridedSlice S16x1024x1024x1 ![0, oa, ok, 0] (padded u) h (ix4 b i j (0 : Fin 1)) = u (ix4 b i' j' (0 : Fin 1)) := by
  have hib := i.isLt
  have hjb := j.isLt
  refine (extractStridedSlice_apply _ _ h _ (ix4 b (⟨i.val + oa, by omega⟩ : Fin 1026) (⟨j.val + ok, by omega⟩ : Fin 1026) (0 : Fin 1)) ?_).trans
    (padded_apply u b _ _ i' j' hi hj)
  intro d
  match d with
  | ⟨0, _⟩ => show b.val = 0 + b.val; omega
  | ⟨1, _⟩ => show i.val + oa = oa + i.val; omega
  | ⟨2, _⟩ => show j.val + ok = ok + j.val; omega
  | ⟨3, _⟩ => show 0 = 0 + 0; omega

theorem prevR_val (i : Fin 1024) : (Cert.Stencil.prevR i).val = if i.val = 0 then 1 else i.val - 1 := by
  unfold Cert.Stencil.prevR
  split <;> rfl

theorem nextR_val (i : Fin 1024) : (Cert.Stencil.nextR i).val = if i.val = 1023 then 1022 else i.val + 1 := by
  unfold Cert.Stencil.nextR
  split <;> rfl

theorem reflects_prev (i : Fin 1024) : Reflects (i.val + 0) (Cert.Stencil.prevR i).val := by
  have := i.isLt
  rw [prevR_val]
  refine ⟨?_, ?_, ?_⟩ <;> intros <;> split <;> omega

theorem reflects_self (i : Fin 1024) : Reflects (i.val + 1) i.val := by
  have := i.isLt
  refine ⟨?_, ?_, ?_⟩ <;> intros <;> omega

theorem reflects_next (i : Fin 1024) : Reflects (i.val + 2) (Cert.Stencil.nextR i).val := by
  have := i.isLt
  rw [nextR_val]
  refine ⟨?_, ?_, ?_⟩ <;> intros <;> split <;> omega

/-! ## The result at a pixel -/

/-- The stencil of a padded array at a pixel: the quotient-by-roots form of its seven windows there. -/
theorem stencil_apply (p : (⟨S16x1026x1026x1, .f32⟩ : BufTy).Contents (Elt Ideal)) (x : S16x1024x1024x1.Idx) :
    stencil p x = Cert.Stencil.sqrtForm
      (extractStridedSlice S16x1024x1024x1 ![0, 1, 1, 0] p slices_S16x1026x1026x1_S16x1024x1024x1_0_1_1_0 x)
      (extractStridedSlice S16x1024x1024x1 ![0, 0, 1, 0] p slices_S16x1026x1026x1_S16x1024x1024x1_0_0_1_0 x)
      (extractStridedSlice S16x1024x1024x1 ![0, 2, 1, 0] p slices_S16x1026x1026x1_S16x1024x1024x1_0_2_1_0 x)
      (extractStridedSlice S16x1024x1024x1 ![0, 1, 0, 0] p slices_S16x1026x1026x1_S16x1024x1024x1_0_1_0_0 x)
      (extractStridedSlice S16x1024x1024x1 ![0, 1, 2, 0] p slices_S16x1026x1026x1_S16x1024x1024x1_0_1_2_0 x)
      (extractStridedSlice S16x1024x1024x1 ![0, 0, 2, 0] p slices_S16x1026x1026x1_S16x1024x1024x1_0_0_2_0 x)
      (extractStridedSlice S16x1024x1024x1 ![0, 2, 0, 0] p slices_S16x1026x1026x1_S16x1024x1024x1_0_2_0_0 x) := rfl

/-- The reference's result at pixel (i, j) of image b: the quotient-by-roots form at that pixel. -/
theorem result_apply (u : (⟨S16x1024x1024x1, .f32⟩ : BufTy).Contents (Elt Ideal)) (b : Fin 16) (i j : Fin 1024) :
    result u (ValueIdx.ix4 b i j (0 : Fin 1)) = Cert.Stencil.atPixel Cert.Stencil.sqrtForm (Cert.Stencil.image u b) i j := by
  show stencil (padded u) (ix4 b i j (0 : Fin 1)) = _
  rw [stencil_apply,
    window_apply u 1 1 (by omega) (by omega) _ b i j i j (reflects_self i) (reflects_self j),
    window_apply u 0 1 (by omega) (by omega) _ b i j (Cert.Stencil.prevR i) j (reflects_prev i) (reflects_self j),
    window_apply u 2 1 (by omega) (by omega) _ b i j (Cert.Stencil.nextR i) j (reflects_next i) (reflects_self j),
    window_apply u 1 0 (by omega) (by omega) _ b i j i (Cert.Stencil.prevR j) (reflects_self i) (reflects_prev j),
    window_apply u 1 2 (by omega) (by omega) _ b i j i (Cert.Stencil.nextR j) (reflects_self i) (reflects_next j),
    window_apply u 0 2 (by omega) (by omega) _ b i j (Cert.Stencil.prevR i) (Cert.Stencil.nextR j) (reflects_prev i) (reflects_next j),
    window_apply u 2 0 (by omega) (by omega) _ b i j (Cert.Stencil.nextR i) (Cert.Stencil.prevR j) (reflects_next i) (reflects_prev j)]
  rfl

end Cert.ReferenceIdeal.RefValue

end
-- ==== Proof.StencilLaw.lean ====
/-
  The algebra of the curvature stencil on real pixels: the constant added under the roots is a
  positive real, so every radicand (two squares plus that constant) is a positive real; there the
  reciprocal root is the reciprocal of the real root and a quotient by the root is the product with
  that reciprocal; the reciprocal-root form and the quotient form then differ only by distributing
  the common factor over (dxf + dyf).
-/
import proofs.«180297_j1125281431627_2_alg».proof.Proof.Stencil

noncomputable section

namespace Cert.Stencil

open Idealize.ShloMosaic

/-- The constant under the roots is a positive real: the pattern is the normal binary32 number
    15111573 · 2^(-77). -/
theorem eps_pos : ∃ e : ℝ, 0 < e ∧ Cert.Stencil.eps = (e : EReal) := by
  refine ⟨(15111573 : ℝ) * (2 : ℝ) ^ (-77 : Int), by positivity, ?_⟩
  unfold eps
  simp [Ideal.ofBits, Ideal.ieee, -EReal.coe_mul]

/-- On a positive real the reciprocal root is the reciprocal of the real root. -/
theorem rsqrt_of_pos {r : ℝ} (h : 0 < r) : Ideal.rsqrt (r : EReal) = (((Real.sqrt r)⁻¹ : ℝ) : EReal) := by
  rw [Ideal.rsqrt_coe, if_neg (not_lt.mpr h.le), if_neg h.ne']

/-- On a positive real the root is the real root. -/
theorem sqrt_of_pos {r : ℝ} (h : 0 < r) : Ideal.sqrt (r : EReal) = ((Real.sqrt r : ℝ) : EReal) := by
  rw [Ideal.sqrt_coe, if_neg (not_lt.mpr h.le)]

/-- A real divided by the root of a positive real is the product with the reciprocal of the root. -/
theorem div_sqrt_of_pos {r : ℝ} (h : 0 < r) (x : ℝ) :
    Ideal.div (x : EReal) (Ideal.sqrt (r : EReal)) = ((x * (Real.sqrt r)⁻¹ : ℝ) : EReal) := by
  rw [sqrt_of_pos h, Ideal.div_coe (Real.sqrt_pos.mpr h).ne', one_div, ← EReal.coe_mul]

/-- On real pixels the two forms agree: every radicand is a sum of two squares and a positive
    constant, hence a positive real; there the reciprocal root is the reciprocal of the root, a
    quotient by the root is a product with that reciprocal, and the common factor distributes. -/
theorem rsqrtForm_eq_sqrtForm (c mi pi mj pj mipj pimj : ℝ) :
    Cert.Stencil.rsqrtForm (c : EReal) (mi : EReal) (pi : EReal) (mj : EReal) (pj : EReal) (mipj : EReal) (pimj : EReal)
      = Cert.Stencil.sqrtForm (c : EReal) (mi : EReal) (pi : EReal) (mj : EReal) (pj : EReal) (mipj : EReal) (pimj : EReal) := by
  obtain ⟨e, he, heq⟩ := eps_pos
  have h1 : 0 < (pi - c) * (pi - c) + (pj - c) * (pj - c) + e := by nlinarith [mul_self_nonneg (pi - c), mul_self_nonneg (pj - c)]
  have h2 : 0 < (c - mi) * (c - mi) + (mipj - mi) * (mipj - mi) + e := by nlinarith [mul_self_nonneg (c - mi), mul_self_nonneg (mipj - mi)]
  have h3 : 0 < (pimj - mj) * (pimj - mj) + (c - mj) * (c - mj) + e := by nlinarith [mul_self_nonneg (pimj - mj), mul_self_nonneg (c - mj)]
  unfold rsqrtForm sqrtForm
  rw [heq]
  simp only [← EReal.coe_sub, ← EReal.coe_mul, ← EReal.coe_add]
  rw [rsqrt_of_pos h1, rsqrt_of_pos h2, rsqrt_of_pos h3, div_sqrt_of_pos h1, div_sqrt_of_pos h1,
    div_sqrt_of_pos h2, div_sqrt_of_pos h3]
  simp only [← EReal.coe_sub, ← EReal.coe_mul, ← EReal.coe_add]
  congr 1
  ring

end Cert.Stencil

end
-- ==== Proof.Bridge.lean ====
/-
  The two programs compute the same array on finite inputs.

  At every pixel the kernel's result is the reciprocal-root form of the stencil and the reference's the quotient form,
  both at the same seven reflected neighbours of the same image.  Finite inputs make those neighbours real numbers,
  where the radicands are positive and the two forms agree.
-/
import proofs.«180297_j1125281431627_2_alg».proof.Proof.KernelPixel
import proofs.«180297_j1125281431627_2_alg».proof.Proof.RefRead
import proofs.«180297_j1125281431627_2_alg».proof.Proof.StencilLaw

noncomputable section

namespace Cert.Bridge

open Idealize.ShloMosaic Idealize.ShloMosaic.ValueIdx Cert.Stencil

/-- On an argument all of whose entries are real, the reference's result is the kernel's. -/
theorem result_eq (u : Cert.KernelIdeal.S16x1024x1024x1.Idx → EReal) (hfin : ∀ idx, ∃ r : ℝ, u idx = (r : EReal)) :
    Cert.ReferenceIdeal.RefValue.result u = Cert.KernelIdeal.Body.resultOf (F := Ideal) u := by
  funext idx
  obtain ⟨b, i, j, z, rfl⟩ : ∃ (b : Fin 16) (i : Fin 1024) (j : Fin 1024) (z : Fin 1), idx = ix4 b i j z :=
    ⟨idx 0, idx 1, idx 2, idx 3, eq_ix4 idx⟩
  obtain rfl : z = 0 := Subsingleton.elim _ _
  rw [Cert.ReferenceIdeal.RefValue.result_apply, Cert.KernelIdeal.Body.result_pixel]
  unfold atPixel image
  obtain ⟨r1, e1⟩ := hfin (ix4 b i j (0 : Fin 1))
  obtain ⟨r2, e2⟩ := hfin (ix4 b (prevR i) j (0 : Fin 1))
  obtain ⟨r3, e3⟩ := hfin (ix4 b (nextR i) j (0 : Fin 1))
  obtain ⟨r4, e4⟩ := hfin (ix4 b i (prevR j) (0 : Fin 1))
  obtain ⟨r5, e5⟩ := hfin (ix4 b i (nextR j) (0 : Fin 1))
  obtain ⟨r6, e6⟩ := hfin (ix4 b (prevR i) (nextR j) (0 : Fin 1))
  obtain ⟨r7, e7⟩ := hfin (ix4 b (nextR i) (prevR j) (0 : Fin 1))
  rw [e1, e2, e3, e4, e5, e6, e7]
  exact (rsqrtForm_eq_sqrtForm r1 r2 r3 r4 r5 r6 r7).symm

end Cert.Bridge

end
-- ==== Proof.lean ====
/- The proof of `Cert.Claim`: a curvature stencil on sixteen 1024 × 1024 images with a reflected one-pixel border,
   computed by a kernel that writes each image in eight bands of 128 rows from the image itself, against a reference
   that pads the array and slices it.

   The three frames: both readings of the kernel run by the body's triple at a generic grid point (Proof/BodyRun.lean:
   the bands cover the output block and are functions of the input block alone, Proof/OutBlock.lean) under the
   pipeline's frame theorem (Proof/GridRun.lean; at machine words Proof/WordGridRun.lean); the reference is a
   sequence of host operations (Proof/RefRun.lean).  The idealization rewrote nothing, so `preserves` is trivial.
   The value claim: the kernel's result at a pixel is the reciprocal-root form of the stencil at the pixel's seven
   reflected neighbours (Proof/KernelValue.lean, Proof/KernelPixel.lean over Proof/Payload.lean), the reference's the
   quotient form at the same neighbours (Proof/RefRead.lean); finite inputs (Proof/FiniteInputs.lean) make them real
   numbers, where the two forms agree (Proof/StencilLaw.lean, Proof/Bridge.lean). -/
import proofs.«180297_j1125281431627_2_alg».proof.Defs
import proofs.«180297_j1125281431627_2_alg».proof.Proof.Gen.Kernel
import proofs.«180297_j1125281431627_2_alg».proof.Proof.Gen.KernelIdeal
import proofs.«180297_j1125281431627_2_alg».proof.Proof.Gen.ReferenceIdeal
import proofs.«180297_j1125281431627_2_alg».proof.Proof.Gen.Pre_finite_inputs
import proofs.«180297_j1125281431627_2_alg».proof.Proof.WordGridRun
import proofs.«180297_j1125281431627_2_alg».proof.Proof.KernelPixel
import proofs.«180297_j1125281431627_2_alg».proof.Proof.RefRun
import proofs.«180297_j1125281431627_2_alg».proof.Proof.FiniteInputs
import proofs.«180297_j1125281431627_2_alg».proof.Proof.Bridge
import Idealize.ShloMosaic.Adequacy
import Idealize.ShloMosaic.Init

noncomputable section

namespace Cert.Proof

open Idealize.ShloMosaic Idealize.SL.Sem

/-- The kernel as printed runs and leaves its argument unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference runs and leaves its argument unchanged: its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on a finite argument both programs end with the same result. -/
theorem algebraic : Cert.algebraic_KernelIdeal_ReferenceIdeal := by
  intro m ρ m' ρ' hpre hagree
  refine ⟨fun c => Cert.KernelIdeal.Body.resultOf (F := Ideal) (m ((c.tc : Thread Cert.KernelIdeal.nD Cert.KernelIdeal.τ).loc Cert.KernelIdeal.main_arg0)),
    Cert.KernelIdeal.Body.value_run m ρ, ?_⟩
  refine (θ_run Cert.ReferenceIdeal.defs _ _).mono (fun _ h c => ⟨(h c).1.trans ?_, (h c).2⟩)
    (Cert.ReferenceIdeal.RefValue.run m' ρ')
  rw [hagree c]
  exact Cert.Bridge.result_eq _ (fun idx => Cert.Finite.real_of_pre m hpre c idx)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
